-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S131072x3 : Shape := ⟨2, ![131072, 3]⟩
abbrev S64x64x3x3 : Shape := ⟨4, ![64, 64, 3, 3]⟩
abbrev S64 : Shape := ⟨1, ![64]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x64x256x256 .f32) (main_arg1 : IVec S131072x3 32) (main_arg2 : FVec F S64x64x3x3 .f32) (main_arg3 : FVec F S64 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S64x64x3x3 .f32 := Host.absf main_arg2
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x64x256x256 : Shape := ⟨4, ![8, 64, 256, 256]⟩
abbrev S131072x3 : Shape := ⟨2, ![131072, 3]⟩
abbrev S64x64x3x3 : Shape := ⟨4, ![64, 64, 3, 3]⟩
abbrev S64 : Shape := ⟨1, ![64]⟩
abbrev S8x256x256x64 : Shape := ⟨4, ![8, 256, 256, 64]⟩
abbrev S_ : Shape := ⟨0, ![]⟩
abbrev S8x258x258x64 : Shape := ⟨4, ![8, 258, 258, 64]⟩
abbrev S131072x1 : Shape := ⟨2, ![131072, 1]⟩
abbrev S131072 : Shape := ⟨1, ![131072]⟩
abbrev S3 : Shape := ⟨1, ![3]⟩
abbrev S131072x1x1 : Shape := ⟨3, ![131072, 1, 1]⟩
abbrev S1x3x1 : Shape := ⟨3, ![1, 3, 1]⟩
abbrev S131072x3x1 : Shape := ⟨3, ![131072, 3, 1]⟩
abbrev S1x1x3 : Shape := ⟨3, ![1, 1, 3]⟩
abbrev S131072x1x3 : Shape := ⟨3, ![131072, 1, 3]⟩
abbrev S131072x3x3 : Shape := ⟨3, ![131072, 3, 3]⟩
abbrev S131072x3x3x1 : Shape := ⟨4, ![131072, 3, 3, 1]⟩
abbrev S131072x3x3x3 : Shape := ⟨4, ![131072, 3, 3, 3]⟩
abbrev S131072x3x3x64 : Shape := ⟨4, ![131072, 3, 3, 64]⟩
abbrev S131072x576 : Shape := ⟨2, ![131072, 576]⟩
abbrev S3x3x64x64 : Shape := ⟨4, ![3, 3, 64, 64]⟩
abbrev S576x64 : Shape := ⟨2, ![576, 64]⟩
abbrev S1x64 : Shape := ⟨2, ![1, 64]⟩
abbrev S131072x64 : Shape := ⟨2, ![131072, 64]⟩
abbrev S8192x576 : Shape := ⟨2, ![8192, 576]⟩
abbrev S8192x64 : Shape := ⟨2, ![8192, 64]⟩

abbrev nBuf : Space → Nat
  | .hbm => 63
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S131072x3, .i32⟩
  | .hbm, ⟨2, _⟩ => ⟨S64x64x3x3, .f32⟩
  | .hbm, ⟨3, _⟩ => ⟨S64, .f32⟩
  | .hbm, ⟨4, _⟩ => ⟨S8x64x256x256, .bf16⟩
  | .hbm, ⟨5, _⟩ => ⟨S8x256x256x64, .bf16⟩
  | .hbm, ⟨6, _⟩ => ⟨S_, .i32⟩
  | .hbm, ⟨7, _⟩ => ⟨S_, .bf16⟩
  | .hbm, ⟨8, _⟩ => ⟨S8x258x258x64, .bf16⟩
  | .hbm, ⟨9, _⟩ => ⟨S131072x1, .i32⟩
  | .hbm, ⟨10, _⟩ => ⟨S131072, .i32⟩
  | .hbm, ⟨11, _⟩ => ⟨S131072x1, .i32⟩
  | .hbm, ⟨12, _⟩ => ⟨S131072, .i32⟩
  | .hbm, ⟨13, _⟩ => ⟨S131072x1, .i32⟩
  | .hbm, ⟨14, _⟩ => ⟨S131072, .i32⟩
  | .hbm, ⟨15, _⟩ => ⟨S3, .i32⟩
  | .hbm, ⟨16, _⟩ => ⟨S3, .i32⟩
  | .hbm, ⟨17, _⟩ => ⟨S131072x1x1, .i32⟩
  | .hbm, ⟨18, _⟩ => ⟨S1x3x1, .i32⟩
  | .hbm, ⟨19, _⟩ => ⟨S131072x3x1, .i32⟩
  | .hbm, ⟨20, _⟩ => ⟨S131072x3x1, .i32⟩
  | .hbm, ⟨21, _⟩ => ⟨S131072x3x1, .i32⟩
  | .hbm, ⟨22, _⟩ => ⟨S131072x1x1, .i32⟩
  | .hbm, ⟨23, _⟩ => ⟨S1x1x3, .i32⟩
  | .hbm, ⟨24, _⟩ => ⟨S131072x1x3, .i32⟩
  | .hbm, ⟨25, _⟩ => ⟨S131072x1x3, .i32⟩
  | .hbm, ⟨26, _⟩ => ⟨S131072x1x3, .i32⟩
  | .hbm, ⟨27, _⟩ => ⟨S131072x1x1, .i32⟩
  | .hbm, ⟨28, _⟩ => ⟨S_, .i32⟩
  | .hbm, ⟨29, _⟩ => ⟨S131072x1x1, .i32⟩
  | .hbm, ⟨30, _⟩ => ⟨S131072x1x1, .i1⟩
  | .hbm, ⟨31, _⟩ => ⟨S_, .i32⟩
  | .hbm, ⟨32, _⟩ => ⟨S131072x1x1, .i32⟩
  | .hbm, ⟨33, _⟩ => ⟨S131072x1x1, .i32⟩
  | .hbm, ⟨34, _⟩ => ⟨S131072x1x1, .i32⟩
  | .hbm, ⟨35, _⟩ => ⟨S_, .i32⟩
  | .hbm, ⟨36, _⟩ => ⟨S131072x3x1, .i32⟩
  | .hbm, ⟨37, _⟩ => ⟨S131072x3x1, .i1⟩
  | .hbm, ⟨38, _⟩ => ⟨S_, .i32⟩
  | .hbm, ⟨39, _⟩ => ⟨S131072x3x1, .i32⟩
  | .hbm, ⟨40, _⟩ => ⟨S131072x3x1, .i32⟩
  | .hbm, ⟨41, _⟩ => ⟨S131072x3x1, .i32⟩
  | .hbm, ⟨42, _⟩ => ⟨S_, .i32⟩
  | .hbm, ⟨43, _⟩ => ⟨S131072x1x3, .i32⟩
  | .hbm, ⟨44, _⟩ => ⟨S131072x1x3, .i1⟩
  | .hbm, ⟨45, _⟩ => ⟨S_, .i32⟩
  | .hbm, ⟨46, _⟩ => ⟨S131072x1x3, .i32⟩
  | .hbm, ⟨47, _⟩ => ⟨S131072x1x3, .i32⟩
  | .hbm, ⟨48, _⟩ => ⟨S131072x1x3, .i32⟩
  | .hbm, ⟨49, _⟩ => ⟨S131072x3x3, .i32⟩
  | .hbm, ⟨50, _⟩ => ⟨S131072x3x3, .i32⟩
  | .hbm, ⟨51, _⟩ => ⟨S131072x3x3, .i32⟩
  | .hbm, ⟨52, _⟩ => ⟨S131072x3x3x1, .i32⟩
  | .hbm, ⟨53, _⟩ => ⟨S131072x3x3x1, .i32⟩
  | .hbm, ⟨54, _⟩ => ⟨S131072x3x3x1, .i32⟩
  | .hbm, ⟨55, _⟩ => ⟨S131072x3x3x3, .i32⟩
  | .hbm, ⟨56, _⟩ => ⟨S131072x3x3x64, .bf16⟩
  | .hbm, ⟨57, _⟩ => ⟨S131072x576, .bf16⟩
  | .hbm, ⟨58, _⟩ => ⟨S3x3x64x64, .f32⟩
  | .hbm, ⟨59, _⟩ => ⟨S576x64, .f32⟩
  | .hbm, ⟨60, _⟩ => ⟨S576x64, .bf16⟩
  | .hbm, ⟨61, _⟩ => ⟨S1x64, .f32⟩
  | .hbm, ⟨62, _⟩ => ⟨S131072x64, .f32⟩
  | .local _ .vmem, ⟨0, _⟩ => ⟨S8192x576, .bf16⟩
  | .local _ .vmem, ⟨1, _⟩ => ⟨S8192x576, .bf16⟩
  | .local _ .vmem, ⟨2, _⟩ => ⟨S576x64, .bf16⟩
  | .local _ .vmem, ⟨3, _⟩ => ⟨S1x64, .f32⟩
  | .local _ .vmem, ⟨4, _⟩ => ⟨S8192x64, .f32⟩
  | .local _ .vmem, ⟨5, _⟩ => ⟨S8192x64, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S8x64x256x256_S8x256x256x64_0_2_3_1 : S8x64x256x256.Transposes [0, 2, 3, 1] S8x256x256x64
  pads_S8x256x256x64_S8x258x258x64_000_110_110_000 : S8x256x256x64.Pads (![0, 1, 1, 0] : Fin 4 → Nat) ![0, 1, 1, 0] ![0, 0, 0, 0] S8x258x258x64
  h_S_ : 0 < S_.numel
  slices_S131072x3_S131072x1_0_0 : S131072x3.Slices ![0, 0] S131072x1
  shapeCasts_S131072x1_S131072 : S131072x1.ShapeCasts S131072
  slices_S131072x3_S131072x1_0_1 : S131072x3.Slices ![0, 1] S131072x1
  slices_S131072x3_S131072x1_0_2 : S131072x3.Slices ![0, 2] S131072x1
  bcast_S131072_S131072x1x1_0 : S131072.BroadcastsInDim S131072x1x1 (![0] : Fin 1 → Fin S131072x1x1.rank)
  bcast_S3_S1x3x1_1 : S3.BroadcastsInDim S1x3x1 (![1] : Fin 1 → Fin S1x3x1.rank)
  bcast_S131072x1x1_S131072x3x1_0_1_2 : S131072x1x1.BroadcastsInDim S131072x3x1 (![0, 1, 2] : Fin 3 → Fin S131072x3x1.rank)
  bcast_S1x3x1_S131072x3x1_0_1_2 : S1x3x1.BroadcastsInDim S131072x3x1 (![0, 1, 2] : Fin 3 → Fin S131072x3x1.rank)
  bcast_S3_S1x1x3_2 : S3.BroadcastsInDim S1x1x3 (![2] : Fin 1 → Fin S1x1x3.rank)
  bcast_S131072x1x1_S131072x1x3_0_1_2 : S131072x1x1.BroadcastsInDim S131072x1x3 (![0, 1, 2] : Fin 3 → Fin S131072x1x3.rank)
  bcast_S1x1x3_S131072x1x3_0_1_2 : S1x1x3.BroadcastsInDim S131072x1x3 (![0, 1, 2] : Fin 3 → Fin S131072x1x3.rank)
  bcast_S_S131072x1x1 : S_.BroadcastsInDim S131072x1x1 (![] : Fin 0 → Fin S131072x1x1.rank)
  bcast_S_S131072x3x1 : S_.BroadcastsInDim S131072x3x1 (![] : Fin 0 → Fin S131072x3x1.rank)
  bcast_S_S131072x1x3 : S_.BroadcastsInDim S131072x1x3 (![] : Fin 0 → Fin S131072x1x3.rank)
  bcast_S131072x1x1_S131072x3x3_0_1_2 : S131072x1x1.BroadcastsInDim S131072x3x3 (![0, 1, 2] : Fin 3 → Fin S131072x3x3.rank)
  bcast_S131072x3x1_S131072x3x3_0_1_2 : S131072x3x1.BroadcastsInDim S131072x3x3 (![0, 1, 2] : Fin 3 → Fin S131072x3x3.rank)
  bcast_S131072x1x3_S131072x3x3_0_1_2 : S131072x1x3.BroadcastsInDim S131072x3x3 (![0, 1, 2] : Fin 3 → Fin S131072x3x3.rank)
  bcast_S131072x3x3_S131072x3x3x1_0_1_2 : S131072x3x3.BroadcastsInDim S131072x3x3x1 (![0, 1, 2] : Fin 3 → Fin S131072x3x3x1.rank)
  concatenates_S131072x3x3x1_S131072x3x3x1_S131072x3x3x1_S131072x3x3x3_d3 : Shape.Concatenates [S131072x3x3x1, S131072x3x3x1, S131072x3x3x1] S131072x3x3x3 3
  shapeCasts_S131072x3x3x64_S131072x576 : S131072x3x3x64.ShapeCasts S131072x576
  transposes_S64x64x3x3_S3x3x64x64_2_3_1_0 : S64x64x3x3.Transposes [2, 3, 1, 0] S3x3x64x64
  shapeCasts_S3x3x64x64_S576x64 : S3x3x64x64.ShapeCasts S576x64
  shapeCasts_S64_S1x64 : S64.ShapeCasts S1x64
  inb_S8192x576_S8192x576_0_0 : ∀ a, (![0, 0] : Fin 2 → Nat) a + S8192x576.size a ≤ S8192x576.size a
  h_S8192x576 : 0 < S8192x576.numel
  shapeCasts_S8192x576_S8192x576 : S8192x576.ShapeCasts S8192x576
  inb_S576x64_S576x64_0_0 : ∀ a, (![0, 0] : Fin 2 → Nat) a + S576x64.size a ≤ S576x64.size a
  h_S576x64 : 0 < S576x64.numel
  shapeCasts_S576x64_S576x64 : S576x64.ShapeCasts S576x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  gather_S8x258x258x64_S131072x3x3x3_S131072x3x3x64_3_012_n_n_012_3_11164_wf : GatherDims.WF S8x258x258x64 S131072x3x3x3 S131072x3x3x64 [3] [0, 1, 2] [] [0, 1, 2] [] 3 ![1, 1, 1, 64]
  dot_S8192x576_S576x64_S8192x64_1_0_0_1_n_n_wf : DotDims.WF S8192x576 S576x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x576.size a ≤ S131072x576.size a
  hwx0_0 : ∀ i : grid0.Coords, EltTy.bits .bf16 = 32 ∨ (Rect.block (s := S131072x576) S8192x576.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x64.size a ≤ S576x64.size a
  hwx0_1 : ∀ i : grid0.Coords, EltTy.bits .bf16 = 32 ∨ (Rect.block (s := S576x64) S576x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S131072x64.size a
  hwx0_3 : ∀ i : grid0.Coords, EltTy.bits .f32 = 32 ∨ (Rect.block (s := S131072x64) S8192x64.size (cc0_transform_3 i) (hinb0_3 i)).WholeWords (EltTy.packing .f32)

variable [Facts₀]

def gather_S8x258x258x64_S131072x3x3x3_S131072x3x3x64_3_012_n_n_012_3_11164 : GatherDims S8x258x258x64 S131072x3x3x3 S131072x3x3x64 where
  offsetDims := [3]
  collapsedSliceDims := [0, 1, 2]
  operandBatchingDims := []
  startIndicesBatchingDims := []
  startIndexMap := [0, 1, 2]
  indexVectorDim := 3
  sliceSizes := ![1, 1, 1, 64]
  wf := gather_S8x258x258x64_S131072x3x3x3_S131072x3x3x64_3_012_n_n_012_3_11164_wf
def dot_S8192x576_S576x64_S8192x64_1_0_0_1_n_n : DotDims S8192x576 S576x64 S8192x64 where
  lhsContracting := [1]
  rhsContracting := [0]
  lhsNonContracting := [0]
  rhsNonContracting := [1]
  lhsBatch := []
  rhsBatch := []
  wf := dot_S8192x576_S576x64_S8192x64_1_0_0_1_n_n_wf

abbrev win0_0 : Pipeline.Window sig grid0 :=
  Pipeline.Window.ofSpec (Memref.whole main_v45) S8192x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S576x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S131072x3 : Shape := ⟨2, ![131072, 3]⟩
abbrev S64x64x3x3 : Shape := ⟨4, ![64, 64, 3, 3]⟩
abbrev S64 : Shape := ⟨1, ![64]⟩
abbrev S_ : Shape := ⟨0, ![]⟩
abbrev S8x64x258x258 : Shape := ⟨4, ![8, 64, 258, 258]⟩
abbrev S131072x1 : Shape := ⟨2, ![131072, 1]⟩
abbrev S131072 : Shape := ⟨1, ![131072]⟩
abbrev S3 : Shape := ⟨1, ![3]⟩
abbrev S131072x1x1 : Shape := ⟨3, ![131072, 1, 1]⟩
abbrev S1x3x1 : Shape := ⟨3, ![1, 3, 1]⟩
abbrev S131072x3x1 : Shape := ⟨3, ![131072, 3, 1]⟩
abbrev S1x1x3 : Shape := ⟨3, ![1, 1, 3]⟩
abbrev S131072x1x3 : Shape := ⟨3, ![131072, 1, 3]⟩
abbrev S131072x3x3 : Shape := ⟨3, ![131072, 3, 3]⟩
abbrev S131072x3x3x1 : Shape := ⟨4, ![131072, 3, 3, 1]⟩
abbrev S131072x3x3x3 : Shape := ⟨4, ![131072, 3, 3, 3]⟩
abbrev S131072x3x3x64 : Shape := ⟨4, ![131072, 3, 3, 64]⟩
abbrev S131072x64x3x3 : Shape := ⟨4, ![131072, 64, 3, 3]⟩
abbrev S131072x576 : Shape := ⟨2, ![131072, 576]⟩
abbrev S64x576 : Shape := ⟨2, ![64, 576]⟩
abbrev S576x64 : Shape := ⟨2, ![576, 64]⟩
abbrev S131072x64 : Shape := ⟨2, ![131072, 64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S131072x3, .i32⟩
  | .hbm, ⟨2, _⟩ => ⟨S64x64x3x3, .f32⟩
  | .hbm, ⟨3, _⟩ => ⟨S64, .f32⟩
  | .hbm, ⟨4, _⟩ => ⟨S_, .i32⟩
  | .hbm, ⟨5, _⟩ => ⟨S_, .f32⟩
  | .hbm, ⟨6, _⟩ => ⟨S8x64x258x258, .f32⟩
  | .hbm, ⟨7, _⟩ => ⟨S131072x1, .i32⟩
  | .hbm, ⟨8, _⟩ => ⟨S131072, .i32⟩
  | .hbm, ⟨9, _⟩ => ⟨S131072x1, .i32⟩
  | .hbm, ⟨10, _⟩ => ⟨S131072, .i32⟩
  | .hbm, ⟨11, _⟩ => ⟨S131072x1, .i32⟩
  | .hbm, ⟨12, _⟩ => ⟨S131072, .i32⟩
  | .hbm, ⟨13, _⟩ => ⟨S3, .i32⟩
  | .hbm, ⟨14, _⟩ => ⟨S3, .i32⟩
  | .hbm, ⟨15, _⟩ => ⟨S131072x1x1, .i32⟩
  | .hbm, ⟨16, _⟩ => ⟨S1x3x1, .i32⟩
  | .hbm, ⟨17, _⟩ => ⟨S131072x3x1, .i32⟩
  | .hbm, ⟨18, _⟩ => ⟨S131072x3x1, .i32⟩
  | .hbm, ⟨19, _⟩ => ⟨S131072x3x1, .i32⟩
  | .hbm, ⟨20, _⟩ => ⟨S131072x1x1, .i32⟩
  | .hbm, ⟨21, _⟩ => ⟨S1x1x3, .i32⟩
  | .hbm, ⟨22, _⟩ => ⟨S131072x1x3, .i32⟩
  | .hbm, ⟨23, _⟩ => ⟨S131072x1x3, .i32⟩
  | .hbm, ⟨24, _⟩ => ⟨S131072x1x3, .i32⟩
  | .hbm, ⟨25, _⟩ => ⟨S131072x1x1, .i32⟩
  | .hbm, ⟨26, _⟩ => ⟨S_, .i32⟩
  | .hbm, ⟨27, _⟩ => ⟨S131072x1x1, .i32⟩
  | .hbm, ⟨28, _⟩ => ⟨S131072x1x1, .i1⟩
  | .hbm, ⟨29, _⟩ => ⟨S_, .i32⟩
  | .hbm, ⟨30, _⟩ => ⟨S131072x1x1, .i32⟩
  | .hbm, ⟨31, _⟩ => ⟨S131072x1x1, .i32⟩
  | .hbm, ⟨32, _⟩ => ⟨S131072x1x1, .i32⟩
  | .hbm, ⟨33, _⟩ => ⟨S_, .i32⟩
  | .hbm, ⟨34, _⟩ => ⟨S131072x3x1, .i32⟩
  | .hbm, ⟨35, _⟩ => ⟨S131072x3x1, .i1⟩
  | .hbm, ⟨36, _⟩ => ⟨S_, .i32⟩
  | .hbm, ⟨37, _⟩ => ⟨S131072x3x1, .i32⟩
  | .hbm, ⟨38, _⟩ => ⟨S131072x3x1, .i32⟩
  | .hbm, ⟨39, _⟩ => ⟨S131072x3x1, .i32⟩
  | .hbm, ⟨40, _⟩ => ⟨S_, .i32⟩
  | .hbm, ⟨41, _⟩ => ⟨S131072x1x3, .i32⟩
  | .hbm, ⟨42, _⟩ => ⟨S131072x1x3, .i1⟩
  | .hbm, ⟨43, _⟩ => ⟨S_, .i32⟩
  | .hbm, ⟨44, _⟩ => ⟨S131072x1x3, .i32⟩
  | .hbm, ⟨45, _⟩ => ⟨S131072x1x3, .i32⟩
  | .hbm, ⟨46, _⟩ => ⟨S131072x1x3, .i32⟩
  | .hbm, ⟨47, _⟩ => ⟨S131072x3x3, .i32⟩
  | .hbm, ⟨48, _⟩ => ⟨S131072x3x3, .i32⟩
  | .hbm, ⟨49, _⟩ => ⟨S131072x3x3, .i32⟩
  | .hbm, ⟨50, _⟩ => ⟨S131072x3x3x1, .i32⟩
  | .hbm, ⟨51, _⟩ => ⟨S131072x3x3x1, .i32⟩
  | .hbm, ⟨52, _⟩ => ⟨S131072x3x3x1, .i32⟩
  | .hbm, ⟨53, _⟩ => ⟨S131072x3x3x3, .i32⟩
  | .hbm, ⟨54, _⟩ => ⟨S131072x3x3x64, .f32⟩
  | .hbm, ⟨55, _⟩ => ⟨S131072x64x3x3, .f32⟩
  | .hbm, ⟨56, _⟩ => ⟨S131072x576, .f32⟩
  | .hbm, ⟨57, _⟩ => ⟨S64x576, .f32⟩
  | .hbm, ⟨58, _⟩ => ⟨S576x64, .f32⟩
  | .hbm, ⟨59, _⟩ => ⟨S131072x64, .f32⟩
  | .hbm, ⟨60, _⟩ => ⟨S1x64, .f32⟩
  | .hbm, ⟨61, _⟩ => ⟨S131072x64, .f32⟩
  | .hbm, ⟨62, _⟩ => ⟨S131072x64, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]

class Facts₀ : Prop where
  pads_S8x64x256x256_S8x64x258x258_000_000_110_110 : S8x64x256x256.Pads (![0, 0, 1, 1] : Fin 4 → Nat) ![0, 0, 1, 1] ![0, 0, 0, 0] S8x64x258x258
  h_S_ : 0 < S_.numel
  slices_S131072x3_S131072x1_0_0 : S131072x3.Slices ![0, 0] S131072x1
  shapeCasts_S131072x1_S131072 : S131072x1.ShapeCasts S131072
  slices_S131072x3_S131072x1_0_1 : S131072x3.Slices ![0, 1] S131072x1
  slices_S131072x3_S131072x1_0_2 : S131072x3.Slices ![0, 2] S131072x1
  bcast_S131072_S131072x1x1_0 : S131072.BroadcastsInDim S131072x1x1 (![0] : Fin 1 → Fin S131072x1x1.rank)
  bcast_S3_S1x3x1_1 : S3.BroadcastsInDim S1x3x1 (![1] : Fin 1 → Fin S1x3x1.rank)
  bcast_S131072x1x1_S131072x3x1_0_1_2 : S131072x1x1.BroadcastsInDim S131072x3x1 (![0, 1, 2] : Fin 3 → Fin S131072x3x1.rank)
  bcast_S1x3x1_S131072x3x1_0_1_2 : S1x3x1.BroadcastsInDim S131072x3x1 (![0, 1, 2] : Fin 3 → Fin S131072x3x1.rank)
  bcast_S3_S1x1x3_2 : S3.BroadcastsInDim S1x1x3 (![2] : Fin 1 → Fin S1x1x3.rank)
  bcast_S131072x1x1_S131072x1x3_0_1_2 : S131072x1x1.BroadcastsInDim S131072x1x3 (![0, 1, 2] : Fin 3 → Fin S131072x1x3.rank)
  bcast_S1x1x3_S131072x1x3_0_1_2 : S1x1x3.BroadcastsInDim S131072x1x3 (![0, 1, 2] : Fin 3 → Fin S131072x1x3.rank)
  bcast_S_S131072x1x1 : S_.BroadcastsInDim S131072x1x1 (![] : Fin 0 → Fin S131072x1x1.rank)
  bcast_S_S131072x3x1 : S_.BroadcastsInDim S131072x3x1 (![] : Fin 0 → Fin S131072x3x1.rank)
  bcast_S_S131072x1x3 : S_.BroadcastsInDim S131072x1x3 (![] : Fin 0 → Fin S131072x1x3.rank)
  bcast_S131072x1x1_S131072x3x3_0_1_2 : S131072x1x1.BroadcastsInDim S131072x3x3 (![0, 1, 2] : Fin 3 → Fin S131072x3x3.rank)
  bcast_S131072x3x1_S131072x3x3_0_1_2 : S131072x3x1.BroadcastsInDim S131072x3x3 (![0, 1, 2] : Fin 3 → Fin S131072x3x3.rank)
  bcast_S131072x1x3_S131072x3x3_0_1_2 : S131072x1x3.BroadcastsInDim S131072x3x3 (![0, 1, 2] : Fin 3 → Fin S131072x3x3.rank)
  bcast_S131072x3x3_S131072x3x3x1_0_1_2 : S131072x3x3.BroadcastsInDim S131072x3x3x1 (![0, 1, 2] : Fin 3 → Fin S131072x3x3x1.rank)
  concatenates_S131072x3x3x1_S131072x3x3x1_S131072x3x3x1_S131072x3x3x3_d3 : Shape.Concatenates [S131072x3x3x1, S131072x3x3x1, S131072x3x3x1] S131072x3x3x3 3
  transposes_S131072x3x3x64_S131072x64x3x3_0_3_1_2 : S131072x3x3x64.Transposes [0, 3, 1, 2] S131072x64x3x3
  shapeCasts_S131072x64x3x3_S131072x576 : S131072x64x3x3.ShapeCasts S131072x576
  shapeCasts_S64x64x3x3_S64x576 : S64x64x3x3.ShapeCasts S64x576
  transposes_S64x576_S576x64_1_0 : S64x576.Transposes [1, 0] S576x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  gather_S8x64x258x258_S131072x3x3x3_S131072x3x3x64_3_023_n_n_023_3_16411_wf : GatherDims.WF S8x64x258x258 S131072x3x3x3 S131072x3x3x64 [3] [0, 2, 3] [] [0, 2, 3] [] 3 ![1, 64, 1, 1]
  dot_S131072x576_S576x64_S131072x64_1_0_0_1_n_n_wf : DotDims.WF S131072x576 S576x64 S131072x64 [1] [0] [0] [1] [] []

variable [Facts₀]

def gather_S8x64x258x258_S131072x3x3x3_S131072x3x3x64_3_023_n_n_023_3_16411 : GatherDims S8x64x258x258 S131072x3x3x3 S131072x3x3x64 where
  offsetDims := [3]
  collapsedSliceDims := [0, 2, 3]
  operandBatchingDims := []
  startIndicesBatchingDims := []
  startIndexMap := [0, 2, 3]
  indexVectorDim := 3
  sliceSizes := ![1, 64, 1, 1]
  wf := gather_S8x64x258x258_S131072x3x3x3_S131072x3x3x64_3_023_n_n_023_3_16411_wf
def dot_S131072x576_S576x64_S131072x64_1_0_0_1_n_n : DotDims S131072x576 S576x64 S131072x64 where
  lhsContracting := [1]
  rhsContracting := [0]
  lhsNonContracting := [0]
  rhsNonContracting := [1]
  lhsBatch := []
  rhsBatch := []
  wf := dot_S131072x576_S576x64_S131072x64_1_0_0_1_n_n_wf

class Facts : Prop extends Facts₀ where

variable [Facts]
-- ==== Proof.KernelRegion.lean ====
/-
  The frame run of the program: it is a line of host operations — the cast and re-layout of the image, its
  zero padding, the index arithmetic, the gather of the 3x3 patches, the re-layout of the weight and of the bias —
  and then ONE region over a grid of 16 points. Point t is handed rows 8192·t … 8192·t + 8191 of the patch
  matrix [131072, 576], the whole weight matrix [576, 64] and the bias row [1, 64], and writes rows
  8192·t … 8192·t + 8191 of the result [131072, 64]: the product of its rows with the weight matrix plus the bias row.

  Stated here, at any float instance: what every buffer holds when the region is entered (the host line's fold over
  the launch contents), that the four argument arrays are written by no host operation, what the body leaves in the
  result's staging buffer as a function of the three blocks it was handed, and the run itself: every fair execution
  ends, nothing faults, the result array holds block by block what the body left and every other buffer what it
  held at the region's entry.
-/
import proofs.«139347_j71536975282579_2_alg».proof.Proof.Gen.Kernel.Launch
import proofs.«139347_j71536975282579_2_alg».proof.Proof.Gen.Kernel.Skeleton
import proofs.«139347_j71536975282579_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the launch contents carried through the three
    stretches of host operations in order — the image's cast and transposition, its zero padding, and the
    index arithmetic with the gather and the operands' re-layouts. -/
abbrev V (c : Dev nD) (b : Ref sig .tc) : Buf (Elt F) ((c : Thread nD τ).loc b) :=
  StableHlo.after (List.flatten [hostOps0, hostOps0_1, hostOps0_2]) (fun b => m (c, b)) b

/-- No host operation allocates: each writes the one buffer of its result. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- The program up to the region: the three stretches run one after the other over the unscoped buffers, and the
    region is entered holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    ⟨hostOps0_sub, hostOps0_1_sub, hostOps0_2_sub⟩ ⟨fresh0, fresh1, fresh2⟩ (fun c => (main_chain c).trans rfl)

/-- A buffer that is the result of no host operation is entered as launched. The four argument arrays are such:
    every operation's result buffer is a value of the program other than its arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks -/

/-- Window `w`'s block at point `t`, read off its array as the region finds it: for the patch matrix rows
    8192·t … 8192·t + 8191, for the weight matrix and the bias row the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds that block at every point, whether the point fetched it (the patch rows,
    at every point) or an earlier one did and the block has not moved since (the weight and the bias, fetched once),
    for any proof data over these arrays whose body leaves the block in place. -/
theorem before_patches {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_weight {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_bias {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves -/

/-- The body's four accesses: each the whole of its buffer. -/
abbrev rPatches : Rect S8192x576 := Rect.unit (s := S8192x576) ![0, 0] S8192x576.size inb_S8192x576_S8192x576_0_0
abbrev rWeight : Rect S576x64 := Rect.unit (s := S576x64) ![0, 0] S576x64.size inb_S576x64_S576x64_0_0
abbrev rBias : Rect S1x64 := Rect.unit (s := S1x64) ![0, 0] S1x64.size inb_S1x64_S1x64_0_0
abbrev rOut : Rect S8192x64 := Rect.unit (s := S8192x64) ![0, 0] S8192x64.size inb_S8192x64_S8192x64_0_0

/-- The result's staging buffer after the body: its one store, of the product of the patch rows with the weight
    matrix plus the bias row, over the whole buffer. -/
def outBlock (x0 : Vec F S8192x576 .bf16) (x1 : Vec F S576x64 .bf16) (x2 : Vec F S1x64 .f32) : Vec F S8192x64 .f32 :=
  View.canon [⟨rOut, k0_pay1 (View.ld x0 rPatches) (View.ld x1 rWeight) (View.ld x2 rBias)⟩]

/-- The one store covers the buffer. -/
theorem cover_out (p0 : Vec F S8192x64 .f32) (y : S8192x64.Idx) :
    ∃ pc ∈ ([⟨rOut, p0⟩] : List (View.Piece (Elt F) S8192x64 .f32)), y ∈ pc.1.set :=
  View.cover_of_tiled [⟨rOut, p0⟩] S8192x64.size (by rfl) y

set_option maxHeartbeats 1000000 in
/-- The body on whole staging buffers, the three inputs' at contents reading `x0`, `x1`, `x2` and the result's at
    anything (the body loads it once and uses nothing of what it read), runs to its end holding the inputs' as they
    were and the result's at `outBlock x0 x1 x2`. -/
theorem sound_kernel (c : Dev nD) (E : Set ℕ) (i : grid0.Coords)
    (arg1 : Memref sig .tc .vmem S8192x576 .bf16) (harg1 : arg1.IsWhole) (arg2 : Memref sig .tc .vmem S576x64 .bf16) (harg2 : arg2.IsWhole)
    (arg3 : Memref sig .tc .vmem S1x64 .f32) (harg3 : arg3.IsWhole) (arg4 : Memref sig .tc .vmem S8192x64 .f32) (harg4 : arg4.IsWhole)
    (x0 : Vec F S8192x576 .bf16) (x1 : Vec F S576x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at point `t` each
    input's buffer at its block and the result's at `outBlock` of the three blocks; nothing kept between points but
    what the staging buffers hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_patches (c : Dev nD) (t : Fin cfg0.N) : (dats m 0 c).after 0 t = iblk m c 0 t := by dsimp only [dats]
theorem after_weight (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem found_patches (c : Dev nD) (t : Fin cfg0.N) (d) : (dats m 0 c).before 0 t d = iblk m c 0 t :=
  before_patches m (dats m 0 c) (A_eq m c 0) (after_patches m c) t d
theorem found_weight (c : Dev nD) (t : Fin cfg0.N) (d) : (dats m 0 c).before 1 t d = iblk m c 1 t :=
  before_weight m (dats m 0 c) (A_eq m c 1) (after_weight m c) t d
theorem found_bias (c : Dev nD) (t : Fin cfg0.N) (d) : (dats m 0 c).before 2 t d = iblk m c 2 t :=
  before_bias m (dats m 0 c) (A_eq m c 2) (after_bias m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_patches, found_weight, found_bias]
  rw [show (dats m 0 c).Φ t.succ = (dats m 0 c).Φ t.castSucc from rfl,
    show (dats m 0 c).owesAt () t.succ = (dats m 0 c).owesAt () t.castSucc from rfl,
    after_patches, after_weight, after_bias, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every fair execution of the program ends, nothing faulting, with each of
    the region's four arrays at what the proof data computes (an input its contents at the region's entry, the
    result those overwritten block by block by what the body left) and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The four argument arrays are arrays of no window and are not scoped: they are among the buffers that pass the
    region by. -/
theorem arg0_rest : main_arg0 ∈ Pipeline.restRefs sig (cfgs 0).spec := Pipeline.mem_restRefs_of _ rfl (by decide)
theorem arg1_rest : main_arg1 ∈ Pipeline.restRefs sig (cfgs 0).spec := Pipeline.mem_restRefs_of _ rfl (by decide)
theorem arg2_rest : main_arg2 ∈ Pipeline.restRefs sig (cfgs 0).spec := Pipeline.mem_restRefs_of _ rfl (by decide)
theorem arg3_rest : main_arg3 ∈ Pipeline.restRefs sig (cfgs 0).spec := Pipeline.mem_restRefs_of _ rfl (by decide)

/-- The frame: every fair execution ends, nothing faults, and the four argument arrays end as launched — no host
    operation writes one and the region stages none. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 _ arg0_rest).trans (V_main_arg0 m c), ((h c).2 _ arg1_rest).trans (V_main_arg1 m c),
      ((h c).2 _ arg2_rest).trans (V_main_arg2 m c), ((h c).2 _ arg3_rest).trans (V_main_arg3 m c)⟩) (run_main m ρ)

end Cert.Kernel.Region

end
-- ==== Proof.KernelIdealRegion.lean ====
/-
  The frame run of the program: it is a line of host operations — the cast and re-layout of the image, its
  zero padding, the index arithmetic, the gather of the 3x3 patches, the re-layout of the weight and of the bias —
  and then ONE region over a grid of 16 points. Point t is handed rows 8192·t … 8192·t + 8191 of the patch
  matrix [131072, 576], the whole weight matrix [576, 64] and the bias row [1, 64], and writes rows
  8192·t … 8192·t + 8191 of the result [131072, 64]: the product of its rows with the weight matrix plus the bias row.

  Stated here, at any float instance: what every buffer holds when the region is entered (the host line's fold over
  the launch contents), that the four argument arrays are written by no host operation, what the body leaves in the
  result's staging buffer as a function of the three blocks it was handed, and the run itself: every fair execution
  ends, nothing faults, the result array holds block by block what the body left and every other buffer what it
  held at the region's entry.
-/
import proofs.«139347_j71536975282579_2_alg».proof.Proof.Gen.KernelIdeal.Launch
import proofs.«139347_j71536975282579_2_alg».proof.Proof.Gen.KernelIdeal.Skeleton
import proofs.«139347_j71536975282579_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the launch contents carried through the three
    stretches of host operations in order — the image's cast and transposition, its zero padding, and the
    index arithmetic with the gather and the operands' re-layouts. -/
abbrev V (c : Dev nD) (b : Ref sig .tc) : Buf (Elt F) ((c : Thread nD τ).loc b) :=
  StableHlo.after (List.flatten [hostOps0, hostOps0_1, hostOps0_2]) (fun b => m (c, b)) b

/-- No host operation allocates: each writes the one buffer of its result. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- The program up to the region: the three stretches run one after the other over the unscoped buffers, and the
    region is entered holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    ⟨hostOps0_sub, hostOps0_1_sub, hostOps0_2_sub⟩ ⟨fresh0, fresh1, fresh2⟩ (fun c => (main_chain c).trans rfl)

/-- A buffer that is the result of no host operation is entered as launched. The four argument arrays are such:
    every operation's result buffer is a value of the program other than its arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks -/

/-- Window `w`'s block at point `t`, read off its array as the region finds it: for the patch matrix rows
    8192·t … 8192·t + 8191, for the weight matrix and the bias row the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds that block at every point, whether the point fetched it (the patch rows,
    at every point) or an earlier one did and the block has not moved since (the weight and the bias, fetched once),
    for any proof data over these arrays whose body leaves the block in place. -/
theorem before_patches {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_weight {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_bias {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves -/

/-- The body's four accesses: each the whole of its buffer. -/
abbrev rPatches : Rect S8192x576 := Rect.unit (s := S8192x576) ![0, 0] S8192x576.size inb_S8192x576_S8192x576_0_0
abbrev rWeight : Rect S576x64 := Rect.unit (s := S576x64) ![0, 0] S576x64.size inb_S576x64_S576x64_0_0
abbrev rBias : Rect S1x64 := Rect.unit (s := S1x64) ![0, 0] S1x64.size inb_S1x64_S1x64_0_0
abbrev rOut : Rect S8192x64 := Rect.unit (s := S8192x64) ![0, 0] S8192x64.size inb_S8192x64_S8192x64_0_0

/-- The result's staging buffer after the body: its one store, of the product of the patch rows with the weight
    matrix plus the bias row, over the whole buffer. -/
def outBlock (x0 : Vec F S8192x576 .bf16) (x1 : Vec F S576x64 .bf16) (x2 : Vec F S1x64 .f32) : Vec F S8192x64 .f32 :=
  View.canon [⟨rOut, k0_pay1 (View.ld x0 rPatches) (View.ld x1 rWeight) (View.ld x2 rBias)⟩]

/-- The one store covers the buffer. -/
theorem cover_out (p0 : Vec F S8192x64 .f32) (y : S8192x64.Idx) :
    ∃ pc ∈ ([⟨rOut, p0⟩] : List (View.Piece (Elt F) S8192x64 .f32)), y ∈ pc.1.set :=
  View.cover_of_tiled [⟨rOut, p0⟩] S8192x64.size (by rfl) y

set_option maxHeartbeats 1000000 in
/-- The body on whole staging buffers, the three inputs' at contents reading `x0`, `x1`, `x2` and the result's at
    anything (the body loads it once and uses nothing of what it read), runs to its end holding the inputs' as they
    were and the result's at `outBlock x0 x1 x2`. -/
theorem sound_kernel (c : Dev nD) (E : Set ℕ) (i : grid0.Coords)
    (arg1 : Memref sig .tc .vmem S8192x576 .bf16) (harg1 : arg1.IsWhole) (arg2 : Memref sig .tc .vmem S576x64 .bf16) (harg2 : arg2.IsWhole)
    (arg3 : Memref sig .tc .vmem S1x64 .f32) (harg3 : arg3.IsWhole) (arg4 : Memref sig .tc .vmem S8192x64 .f32) (harg4 : arg4.IsWhole)
    (x0 : Vec F S8192x576 .bf16) (x1 : Vec F S576x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at point `t` each
    input's buffer at its block and the result's at `outBlock` of the three blocks; nothing kept between points but
    what the staging buffers hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_patches (c : Dev nD) (t : Fin cfg0.N) : (dats m 0 c).after 0 t = iblk m c 0 t := by dsimp only [dats]
theorem after_weight (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem found_patches (c : Dev nD) (t : Fin cfg0.N) (d) : (dats m 0 c).before 0 t d = iblk m c 0 t :=
  before_patches m (dats m 0 c) (A_eq m c 0) (after_patches m c) t d
theorem found_weight (c : Dev nD) (t : Fin cfg0.N) (d) : (dats m 0 c).before 1 t d = iblk m c 1 t :=
  before_weight m (dats m 0 c) (A_eq m c 1) (after_weight m c) t d
theorem found_bias (c : Dev nD) (t : Fin cfg0.N) (d) : (dats m 0 c).before 2 t d = iblk m c 2 t :=
  before_bias m (dats m 0 c) (A_eq m c 2) (after_bias m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_patches, found_weight, found_bias]
  rw [show (dats m 0 c).Φ t.succ = (dats m 0 c).Φ t.castSucc from rfl,
    show (dats m 0 c).owesAt () t.succ = (dats m 0 c).owesAt () t.castSucc from rfl,
    after_patches, after_weight, after_bias, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every fair execution of the program ends, nothing faulting, with each of
    the region's four arrays at what the proof data computes (an input its contents at the region's entry, the
    result those overwritten block by block by what the body left) and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The four argument arrays are arrays of no window and are not scoped: they are among the buffers that pass the
    region by. -/
theorem arg0_rest : main_arg0 ∈ Pipeline.restRefs sig (cfgs 0).spec := Pipeline.mem_restRefs_of _ rfl (by decide)
theorem arg1_rest : main_arg1 ∈ Pipeline.restRefs sig (cfgs 0).spec := Pipeline.mem_restRefs_of _ rfl (by decide)
theorem arg2_rest : main_arg2 ∈ Pipeline.restRefs sig (cfgs 0).spec := Pipeline.mem_restRefs_of _ rfl (by decide)
theorem arg3_rest : main_arg3 ∈ Pipeline.restRefs sig (cfgs 0).spec := Pipeline.mem_restRefs_of _ rfl (by decide)

/-- The frame: every fair execution ends, nothing faults, and the four argument arrays end as launched — no host
    operation writes one and the region stages none. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 _ arg0_rest).trans (V_main_arg0 m c), ((h c).2 _ arg1_rest).trans (V_main_arg1 m c),
      ((h c).2 _ arg2_rest).trans (V_main_arg2 m c), ((h c).2 _ arg3_rest).trans (V_main_arg3 m c)⟩) (run_main m ρ)

end Cert.KernelIdeal.Region

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KernelIdealValue.lean ====
/-
  What the kernel's result array holds after the run, at the ideal values.

  The region stages three arrays: the patch matrix P [131072, 576], the weight matrix W [576, 64] and the bias row
  B [1, 64]. Grid point t is handed rows 8192·t … 8192·t + 8191 of P and all of W and B, and its body stores, at
  (r, d) of its block, the sum over k < 576 of P(8192·t + r, k) · W(k, d), plus B(0, d). So every point writes its
  block of ONE function of the three arrays,
      product P W B (n, d) = Σ_k P(n, k) · W(k, d) + B(0, d),
  and the 16 blocks tile the result: row n lies in the block of point n / 8192. The result array ends at `product`
  of the three arrays as the region found them.
-/
import proofs.«139347_j71536975282579_2_alg».proof.Proof.KernelIdealRegion
import proofs.«139347_j71536975282579_2_alg».proof.Proof.LibPlainDot
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.RegionValue

open Cert.KernelIdeal Cert.KernelIdeal.Gen Cert.KernelIdeal.Region
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Row n of the patch matrix times the weight matrix, plus the bias row. -/
def product (Pm : FVec Ideal S131072x576 .bf16) (Wm : FVec Ideal S576x64 .bf16) (Bm : FVec Ideal S1x64 .f32) :
    FVec Ideal S131072x64 .f32 :=
  fun i => (∑ k : Fin 576, Pm (ix2 (i 0) k) * Wm (ix2 k (i 1))) + Bm (ix2 0 (i 1))

/-- What the body stores, at (r, d) of the block: the r-th row it was handed times the weight matrix, plus the bias. -/
theorem payload_apply (x0 : FVec Ideal S8192x576 .bf16) (x1 : FVec Ideal S576x64 .bf16) (x2 : FVec Ideal S1x64 .f32)
    (y : S8192x64.Idx) :
    k0_pay1 (F := Ideal) x0 x1 x2 y = (∑ k : Fin 576, x0 (ix2 (y 0) k) * x1 (ix2 k (y 1))) + x2 (ix2 0 (y 1)) := by
  unfold k0_pay1
  simp only [shapeCast_self]
  refine (addf_apply _ _ y).trans ?_
  refine congr (congrArg HAdd.hAdd ?_) ?_
  · exact Cert.LibPlainDot.matmul_plain 8192 576 64 none x0 x1 y
  · exact broadcastTo_apply x2 broadcasts_S1x64_S8192x64 y (ix2 0 (y 1)) (fun a => match a with
      | ⟨0, _⟩ => by show (0 : Nat) = if (1 : Nat) = 1 then 0 else _; rw [if_pos rfl]
      | ⟨1, _⟩ => by show (y 1).val = if (64 : Nat) = 1 then 0 else (y 1).val; rw [if_neg (by decide)])

/-- Where the blocks sit: the patch rows' and the result's block index is the point on the row axis; the weight's and
    the bias's is zero. -/
theorem index_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N, _)

/-- The patch block at point t is rows 8192·t … of the patch matrix as the region finds it. -/
theorem patches_block (c : Dev nD) (t : Fin cfg0.N) (y : S8192x576.Idx) (i : S131072x576.Idx)
    (h0 : (i 0).val = 8192 * t.val + (y 0).val) (h1 : (i 1).val = (y 1).val) :
    (iblk m c 0 t : FVec Ideal S8192x576 .bf16) y = (V m c main_v45 : FVec Ideal S131072x576 .bf16) i := by
  obtain ⟨⟨e0, e1⟩, -⟩ := index_facts t
  unfold iblk
  rw [View.read_apply]
  show V m c main_v45 _ = V m c main_v45 _
  congr 1
  funext a
  apply Fin.ext
  match a with
  | ⟨0, _⟩ => show win0_0.index t 0 * 8192 + 1 * (y 0).val = (i 0).val; rw [e0, h0]; omega
  | ⟨1, _⟩ => show win0_0.index t 1 * 576 + 1 * (y 1).val = (i 1).val; rw [e1, h1]; omega

/-- The weight block is the weight matrix, -/
theorem weight_block (c : Dev nD) (t : Fin cfg0.N) (y : S576x64.Idx) :
    (iblk m c 1 t : FVec Ideal S576x64 .bf16) y = (V m c main_v48 : FVec Ideal S576x64 .bf16) y := by
  obtain ⟨-, ⟨e0, e1⟩, -⟩ := index_facts t
  unfold iblk
  rw [View.read_apply]
  show V m c main_v48 _ = V m c main_v48 _
  congr 1
  funext a
  apply Fin.ext
  match a with
  | ⟨0, _⟩ => show win0_1.index t 0 * 576 + 1 * (y 0).val = (y 0).val; rw [e0]; omega
  | ⟨1, _⟩ => show win0_1.index t 1 * 64 + 1 * (y 1).val = (y 1).val; rw [e1]; omega

/-- and the bias block the bias row. -/
theorem bias_block (c : Dev nD) (t : Fin cfg0.N) (y : S1x64.Idx) :
    (iblk m c 2 t : FVec Ideal S1x64 .f32) y = (V m c main_v49 : FVec Ideal S1x64 .f32) y := by
  obtain ⟨-, -, ⟨e0, e1⟩, -⟩ := index_facts t
  unfold iblk
  rw [View.read_apply]
  show V m c main_v49 _ = V m c main_v49 _
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

/-- The three arrays' function the result ends at. -/
abbrev result (c : Dev nD) : FVec Ideal S131072x64 .f32 :=
  product (V m c main_v45) (V m c main_v48) (V m c main_v49)

/-- What point t writes back is its block of `result`. -/
theorem flushed_eq (c : Dev nD) (t : Fin cfg0.N) (hf : (cfg0.win 3).flush t = true) :
    (dats m 0 c).flushed 3 t = ((cfg0.win 3).blk t).view.read (Elt Ideal) (result m c) := by
  obtain ⟨-, -, -, e0, e1⟩ := index_facts t
  show (cfg0.win 3).cut (grid0.coords t) ((dats m 0 c).after 3 t) = _
  rw [after_out]
  unfold outBlock
  rw [View.canon_unit_zero hz]
  simp only [View.ld_unit_zero (S := S8192x576) hz, View.ld_unit_zero (S := S576x64) hz, View.ld_unit_zero (S := S1x64) hz]
  funext y
  rw [View.read_apply]
  show k0_pay1 (F := Ideal) (iblk m c 0 t) (iblk m c 1 t) (iblk m c 2 t) y = product _ _ _ _
  rw [payload_apply]
  unfold product
  refine congr (congrArg HAdd.hAdd (Finset.sum_congr rfl fun k _ => ?_)) ?_
  · refine congr (congrArg HMul.hMul ?_) ?_
    · refine patches_block m c t (ix2 (y 0) k) _ ?_ rfl
      show win0_3.index t 0 * 8192 + 1 * (y 0).val = 8192 * t.val + (y 0).val
      rw [e0]; omega
    · refine (weight_block m c t (ix2 k (y 1))).trans (congrArg _ ?_)
      funext a
      apply Fin.ext
      match a with
      | ⟨0, _⟩ => rfl
      | ⟨1, _⟩ => show (y 1).val = win0_3.index t 1 * 64 + 1 * (y 1).val; rw [e1]; omega
  · refine (bias_block m c t (ix2 0 (y 1))).trans (congrArg _ ?_)
    funext a
    apply Fin.ext
    match a with
    | ⟨0, _⟩ => rfl
    | ⟨1, _⟩ => show (y 1).val = win0_3.index t 1 * 64 + 1 * (y 1).val; rw [e1]; omega

/-! ## The result array after the run -/

/-- Every block is whole: no point's block is cut at the array's edge. -/
theorem xsize_facts : ∀ t : Fin cfg0.N, win0_3.xsize (grid0.coords t) 0 = 8192 ∧ win0_3.xsize (grid0.coords t) 1 = 64 :=
  (by decide +kernel : ∀ t : Fin grid0.N, _)

/-- Row n lies in the block of point n / 8192, so the 16 blocks cover the result, which ends at `result`. -/
theorem final_out (c : Dev nD) : (dats m 0 c).arrAt 3 cfg0.N = result m c :=
  (dats m 0 c).arrAt_eq_of_cover 3 (result m c) (flushed_eq m c) fun i => by
    have h0 : (i 0 : Nat) < 131072 := (i 0).isLt
    have h1 : (i 1 : Nat) < 64 := (i 1).isLt
    have hN : cfg0.N = 16 := N_0
    have ht : (i 0 : Nat) / 8192 < cfg0.N := by rw [hN]; omega
    refine ⟨⟨(i 0 : Nat) / 8192, ht⟩, flush0_3 _, ?_⟩
    obtain ⟨-, -, -, e0, e1⟩ := index_facts ⟨(i 0 : Nat) / 8192, ht⟩
    obtain ⟨s0, s1⟩ := xsize_facts ⟨(i 0 : Nat) / 8192, ht⟩
    show i ∈ ((View.whole main_v50).slice (win0_3.rect ⟨(i 0 : Nat) / 8192, ht⟩)).set
    rw [View.set_slice_whole, Rect.mem_set_unit]
    intro a
    match a with
    | ⟨0, _⟩ =>
      show win0_3.index ⟨(i 0 : Nat) / 8192, ht⟩ 0 * win0_3.size 0 ≤ (i 0 : Nat)
        ∧ (i 0 : Nat) < win0_3.index ⟨(i 0 : Nat) / 8192, ht⟩ 0 * win0_3.size 0 + win0_3.xsize (grid0.coords ⟨(i 0 : Nat) / 8192, ht⟩) 0
      rw [e0, s0]
      show (i 0 : Nat) / 8192 * 8192 ≤ (i 0 : Nat) ∧ (i 0 : Nat) < (i 0 : Nat) / 8192 * 8192 + 8192
      omega
    | ⟨1, _⟩ =>
      show win0_3.index ⟨(i 0 : Nat) / 8192, ht⟩ 1 * win0_3.size 1 ≤ (i 1 : Nat)
        ∧ (i 1 : Nat) < win0_3.index ⟨(i 0 : Nat) / 8192, ht⟩ 1 * win0_3.size 1 + win0_3.xsize (grid0.coords ⟨(i 0 : Nat) / 8192, ht⟩) 1
      rw [e1, s1]
      show 0 * 64 ≤ (i 1 : Nat) ∧ (i 1 : Nat) < 0 * 64 + 64
      omega

/-- The run, read: the result array at `result`, the four arguments as launched. -/
theorem run : θ_run defs (onTc (τ := τ) (main (F := Ideal))) ⟨m, fun _ => 0, ρ⟩ fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final_out m c),
      ((h c).2 _ arg0_rest).trans (V_main_arg0 m c), ((h c).2 _ arg1_rest).trans (V_main_arg1 m c),
      ((h c).2 _ arg2_rest).trans (V_main_arg2 m c), ((h c).2 _ arg3_rest).trans (V_main_arg3 m c)⟩) (run_main m ρ)

/-! ## The three staged arrays as the host line computes them -/

section HostLine
open Idealize.ShloMosaic.StableHlo

/-- A joining of THREE arrays writes its function of the three operands' contents, each at its own buffer. -/
theorem nary3_result' {Val : EltTy → Type} {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [nary_result]; congr 1; funext k; fin_cases k <;> rfl

/-- The bias row is the bias vector with a leading unit axis. -/
theorem bias_eq (c : Dev nD) :
    V m c main_v49 = fun i => shapeCast S1x64 (m ((c.tc : Thread nD τ).loc main_arg3)) shapeCasts_S64_S1x64 i := by
  dsimp only [V]
  simp only [hostOps0, hostOps0_1, hostOps0_2, List.flatten_cons, List.flatten_nil, List.append_nil, List.cons_append, List.nil_append]
  simp (disch := decide) only [after_cons, after_nil, nullary_result', unary_result', binary_result', ternary_result',
    reshape_result', nary3_result', nullary_result_ne', unary_result_ne', binary_result_ne', ternary_result_ne',
    reshape_result_ne', nary_result_ne']
  rfl

/-- The weight matrix is the weight, its axes permuted to (row, column, input channel, output channel) and the first
    three flattened. -/
theorem weight_eq (c : Dev nD) :
    V m c main_v48 = (truncf (F := Ideal) .bf16 (fun i => shapeCast S576x64
      (transpose S3x3x64x64 [2, 3, 1, 0] (m ((c.tc : Thread nD τ).loc main_arg2) : FVec Ideal S64x64x3x3 .f32) transposes_S64x64x3x3_S3x3x64x64_2_3_1_0)
      shapeCasts_S3x3x64x64_S576x64 i) bitsLt_bf16_f32 : FVec Ideal S576x64 .bf16) := by
  dsimp only [V]
  simp only [hostOps0, hostOps0_1, hostOps0_2, List.flatten_cons, List.flatten_nil, List.append_nil, List.cons_append, List.nil_append]
  simp (disch := decide) only [after_cons, after_nil, nullary_result', unary_result', binary_result', ternary_result',
    reshape_result', nary3_result', nullary_result_ne', unary_result_ne', binary_result_ne', ternary_result_ne',
    reshape_result_ne', nary_result_ne']
  rfl

/-- The padded image: the image with the channel axis moved last, one zero row and column on each side. -/
theorem padded_eq (c : Dev nD) :
    V m c main_v2 = pad S8x258x258x64 ![0, 1, 1, 0] ![0, 1, 1, 0] ![0, 0, 0, 0]
      (transpose S8x256x256x64 [0, 2, 3, 1] (truncf .bf16 (m ((c.tc : Thread nD τ).loc main_arg0)) bitsLt_bf16_f32)
        transposes_S8x64x256x256_S8x256x256x64_0_2_3_1)
      (sitofp (F := Ideal) .bf16 (constantI S_ 32 0#32)) pads_S8x256x256x64_S8x258x258x64_000_110_110_000 h_S_ := by
  dsimp only [V]
  simp only [hostOps0, hostOps0_1, hostOps0_2, List.flatten_cons, List.flatten_nil, List.append_nil, List.cons_append, List.nil_append]
  simp (disch := decide) only [after_cons, after_nil, nullary_result', unary_result', binary_result', ternary_result',
    reshape_result', nary3_result', nullary_result_ne', unary_result_ne', binary_result_ne', ternary_result_ne',
    reshape_result_ne', nary_result_ne']
  rfl

set_option maxHeartbeats 2000000 in
/-- The patch matrix: the pixels gathered from the padded image at the site array, each site's 3x3x64 patch flattened. -/
theorem patches_eq (c : Dev nD) :
    V m c main_v45 = fun i => shapeCast S131072x576
      (Host.gather gather_S8x258x258x64_S131072x3x3x3_S131072x3x3x64_3_012_n_n_012_3_11164 (V m c main_v2) (V m c main_v43))
      shapeCasts_S131072x3x3x64_S131072x576 i := by
  dsimp only [V]
  simp only [hostOps0, hostOps0_1, hostOps0_2, List.flatten_cons, List.flatten_nil, List.append_nil, List.cons_append, List.nil_append]
  simp (disch := decide) only [after_cons, after_nil, nullary_result', unary_result', binary_result', ternary_result',
    reshape_result', nary3_result', nullary_result_ne', unary_result_ne', binary_result_ne', ternary_result_ne',
    reshape_result_ne', nary_result_ne']
  rfl

end HostLine

/-! ## The three staged arrays read at an index -/

/-- The bias row at (0, d) is the bias at d. -/
theorem bias_apply (c : Dev nD) (d : Fin 64) :
    (V m c main_v49 : FVec Ideal S1x64 .f32) (ix2 0 d) = (m ((c.tc : Thread nD τ).loc main_arg3) : FVec Ideal S64 .f32) (ix1 d) := by
  rw [bias_eq]
  exact shapeCast_apply _ shapeCasts_S64_S1x64 (ix2 0 d) (ix1 d)
    (by rw [Shape.rowMajor_val_one, Shape.rowMajor_val_two]; show d.val = 0 * 64 + d.val; omega)

/-- The weight matrix at (k, d), k = 64·(3·row + column) + channel, is the weight at (d, channel, row, column). -/
theorem weight_apply (c : Dev nD) (k : Fin 576) (d : Fin 64) :
    (V m c main_v48 : FVec Ideal S576x64 .bf16) (ix2 k d)
      = (m ((c.tc : Thread nD τ).loc main_arg2) : FVec Ideal S64x64x3x3 .f32)
          (ix4 d ⟨k.val % 64, Nat.mod_lt _ (by decide)⟩ ⟨k.val / 192, by have := k.isLt; omega⟩ ⟨k.val / 64 % 3, Nat.mod_lt _ (by decide)⟩) := by
  have hk := k.isLt
  rw [weight_eq]
  refine (truncf_apply (φ := .f32) (ψ := .bf16) _ bitsLt_bf16_f32 (ix2 k d)).trans ?_
  refine (shapeCast_apply _ shapeCasts_S3x3x64x64_S576x64 (ix2 k d)
    (ix4 (⟨k.val / 192, by omega⟩ : Fin 3) (⟨k.val / 64 % 3, Nat.mod_lt _ (by decide)⟩ : Fin 3) (⟨k.val % 64, Nat.mod_lt _ (by decide)⟩ : Fin 64) d)
    (by rw [Shape.rowMajor_val_four, Shape.rowMajor_val_two]
        show ((k.val / 192 * 3 + k.val / 64 % 3) * 64 + k.val % 64) * 64 + d.val = k.val * 64 + d.val
        omega)).trans ?_
  exact transpose_apply [2, 3, 1, 0] _ transposes_S64x64x3x3_S3x3x64x64_2_3_1_0 _
    (ix4 d ⟨k.val % 64, Nat.mod_lt _ (by decide)⟩ ⟨k.val / 192, by omega⟩ ⟨k.val / 64 % 3, Nat.mod_lt _ (by decide)⟩)
    (fun b => match b with
      | ⟨0, _⟩ => rfl
      | ⟨1, _⟩ => rfl
      | ⟨2, _⟩ => rfl
      | ⟨3, _⟩ => rfl)

/-- The patch matrix at (n, k), k = 64·(3·row + column) + channel, is the pixel gathered for site n at window
    position (row, column), at that channel. -/
theorem patch_apply (c : Dev nD) (n : Fin 131072) (k : Fin 576) :
    (V m c main_v45 : FVec Ideal S131072x576 .bf16) (ix2 n k)
      = Host.gather gather_S8x258x258x64_S131072x3x3x3_S131072x3x3x64_3_012_n_n_012_3_11164 (V m c main_v2) (V m c main_v43)
          (ix4 n (⟨k.val / 192, by have := k.isLt; omega⟩ : Fin 3) (⟨k.val / 64 % 3, Nat.mod_lt _ (by decide)⟩ : Fin 3) (⟨k.val % 64, Nat.mod_lt _ (by decide)⟩ : Fin 64)) := by
  have hk := k.isLt
  have hn := n.isLt
  rw [patches_eq]
  exact shapeCast_apply _ shapeCasts_S131072x3x3x64_S131072x576 (ix2 n k) _
    (by rw [Shape.rowMajor_val_four, Shape.rowMajor_val_two]
        show ((n.val * 3 + k.val / 192) * 3 + k.val / 64 % 3) * 64 + k.val % 64 = n.val * 576 + k.val
        omega)

end Cert.KernelIdeal.RegionValue

end
-- ==== Proof.PatchLayout.lean ====
/-
  Three facts about arrays, none about a program.

  A 3x3 patch of a 64-channel image is 576 numbers. Flattened with the channel LAST its entry (j, c) — j the position
  in the 3x3 window, 0 … 8, c the channel — sits at position 64·j + c; flattened with the channel FIRST at 9·c + j.
  `swapFlat` is the bijection of the 576 positions between the two orders, and a sum over the positions may be taken
  in either.

  The image itself comes in two layouts, channel last [8, 256, 256, 64] and channel first [8, 64, 256, 256], with
  the same number at (b, y, x, c) and at (b, c, y, x). Padding both by one zero row and column on each side of the two
  spatial axes keeps that; and so does gathering, from either padded image, the 64-channel pixel at three start
  indices read off ONE index array: the gather clamps each start index into its axis, and the three indexed axes have
  the same extents 8, 258, 258 in both layouts.
-/
import Idealize.ShloMosaic.PureOps.Ideal
import Idealize.ShloMosaic.Lib.ValueIdx
import Idealize.ShloMosaic.Lib.Pipeline.Value

noncomputable section

open scoped BigOperators

namespace Cert.PatchLayout

open Idealize.ShloMosaic Idealize.ShloMosaic.ValueIdx

/-! ## The two flatten orders of a patch -/

/-- Position 64·j + c of the channel-last order is position 9·c + j of the channel-first order (j < 9, c < 64). -/
def swapFlat : Fin 576 ≃ Fin 576 where
  toFun k := ⟨(k.val % 64) * 9 + k.val / 64, by have := k.isLt; omega⟩
  invFun k := ⟨(k.val % 9) * 64 + k.val / 9, by have := k.isLt; omega⟩
  left_inv k := Fin.ext (by have := k.isLt; show ((k.val % 64) * 9 + k.val / 64) % 9 * 64 + ((k.val % 64) * 9 + k.val / 64) / 9 = k.val; omega)
  right_inv k := Fin.ext (by have := k.isLt; show ((k.val % 9) * 64 + k.val / 9) % 64 * 9 + ((k.val % 9) * 64 + k.val / 9) / 64 = k.val; omega)

theorem swapFlat_symm_val (k : Fin 576) : (swapFlat.symm k).val = (k.val % 9) * 64 + k.val / 9 := rfl

/-- Position 9·c + j of the channel-first order, sent to 64·j + c, has window row j / 3, window column j mod 3 and
    channel c: the three coordinates both flattenings name, decided over the 576 positions. -/
theorem swapFlat_coords : ∀ k : Fin 576,
    ((k.val % 9) * 64 + k.val / 9) / 192 = k.val / 3 % 3
    ∧ ((k.val % 9) * 64 + k.val / 9) / 64 % 3 = k.val % 3
    ∧ ((k.val % 9) * 64 + k.val / 9) % 64 = k.val / 9 := by
  decide +kernel

/-- A sum over the 576 positions, taken in the other order. -/
theorem sum_swapFlat {M : Type*} [AddCommMonoid M] (f : Fin 576 → M) : ∑ k, f k = ∑ k, f (swapFlat.symm k) :=
  (Equiv.sum_comp swapFlat.symm f).symm

/-! ## The two layouts of the image, padded -/

abbrev ImgLast : Shape := ⟨4, ![8, 256, 256, 64]⟩
abbrev ImgFirst : Shape := ⟨4, ![8, 64, 256, 256]⟩
abbrev PadLast : Shape := ⟨4, ![8, 258, 258, 64]⟩
abbrev PadFirst : Shape := ⟨4, ![8, 64, 258, 258]⟩
abbrev Scalar0 : Shape := ⟨0, ![]⟩

/-- One zero row and column on each side of the two spatial axes: the padded images agree across the two layouts
    wherever the images do. Inside, both read the image at (b, y − 1, x − 1, c); on the border both read the padding value. -/
theorem pad_layouts {α : Type} (xL : ImgLast.Idx → α) (xF : ImgFirst.Idx → α)
    (hx : ∀ (b : Fin 8) (y x : Fin 256) (c : Fin 64), xL (ix4 b y x c) = xF (ix4 b c y x))
    (vL vF : Scalar0.Idx → α) (hv : vL ix0 = vF ix0)
    (hL : ImgLast.Pads (![0, 1, 1, 0] : Fin 4 → Nat) ![0, 1, 1, 0] ![0, 0, 0, 0] PadLast)
    (hF : ImgFirst.Pads (![0, 0, 1, 1] : Fin 4 → Nat) ![0, 0, 1, 1] ![0, 0, 0, 0] PadFirst)
    (hu : 0 < Scalar0.numel) (b : Fin 8) (y x : Fin 258) (c : Fin 64) :
    pad PadLast ![0, 1, 1, 0] ![0, 1, 1, 0] ![0, 0, 0, 0] xL vL hL hu (ix4 b y x c)
      = pad PadFirst ![0, 0, 1, 1] ![0, 0, 1, 1] ![0, 0, 0, 0] xF vF hF hu (ix4 b c y x) := by
  have hb := b.isLt; have hc := c.isLt
  unfold pad
  by_cases hin : (1 ≤ y.val ∧ y.val - 1 < 256) ∧ (1 ≤ x.val ∧ x.val - 1 < 256)
  · obtain ⟨⟨hy1, hy2⟩, hx1, hx2⟩ := hin
    have hinL : ∀ a : Fin ImgLast.rank, (![0, 1, 1, 0] : Fin 4 → Nat) a ≤ ((ix4 b y x c : PadLast.Idx) (a.cast hL.1)).val
        ∧ (((ix4 b y x c : PadLast.Idx) (a.cast hL.1)).val - (![0, 1, 1, 0] : Fin 4 → Nat) a) % ((![0, 0, 0, 0] : Fin 4 → Nat) a + 1) = 0
        ∧ (((ix4 b y x c : PadLast.Idx) (a.cast hL.1)).val - (![0, 1, 1, 0] : Fin 4 → Nat) a) / ((![0, 0, 0, 0] : Fin 4 → Nat) a + 1) < ImgLast.size a := by
      intro a
      match a with
      | ⟨0, _⟩ => exact ⟨Nat.zero_le _, Nat.mod_one _, by show (b.val - 0) / (0 + 1) < 8; omega⟩
      | ⟨1, _⟩ => exact ⟨hy1, Nat.mod_one _, by show (y.val - 1) / (0 + 1) < 256; omega⟩
      | ⟨2, _⟩ => exact ⟨hx1, Nat.mod_one _, by show (x.val - 1) / (0 + 1) < 256; omega⟩
      | ⟨3, _⟩ => exact ⟨Nat.zero_le _, Nat.mod_one _, by show (c.val - 0) / (0 + 1) < 64; omega⟩
    have hinF : ∀ a : Fin ImgFirst.rank, (![0, 0, 1, 1] : Fin 4 → Nat) a ≤ ((ix4 b c y x : PadFirst.Idx) (a.cast hF.1)).val
        ∧ (((ix4 b c y x : PadFirst.Idx) (a.cast hF.1)).val - (![0, 0, 1, 1] : Fin 4 → Nat) a) % ((![0, 0, 0, 0] : Fin 4 → Nat) a + 1) = 0
        ∧ (((ix4 b c y x : PadFirst.Idx) (a.cast hF.1)).val - (![0, 0, 1, 1] : Fin 4 → Nat) a) / ((![0, 0, 0, 0] : Fin 4 → Nat) a + 1) < ImgFirst.size a := by
      intro a
      match a with
      | ⟨0, _⟩ => exact ⟨Nat.zero_le _, Nat.mod_one _, by show (b.val - 0) / (0 + 1) < 8; omega⟩
      | ⟨1, _⟩ => exact ⟨Nat.zero_le _, Nat.mod_one _, by show (c.val - 0) / (0 + 1) < 64; omega⟩
      | ⟨2, _⟩ => exact ⟨hy1, Nat.mod_one _, by show (y.val - 1) / (0 + 1) < 256; omega⟩
      | ⟨3, _⟩ => exact ⟨hx1, Nat.mod_one _, by show (x.val - 1) / (0 + 1) < 256; omega⟩
    rw [dif_pos hinL, dif_pos hinF]
    have eL : (fun a : Fin ImgLast.rank => (⟨(((ix4 b y x c : PadLast.Idx) (a.cast hL.1)).val - (![0, 1, 1, 0] : Fin 4 → Nat) a) / ((![0, 0, 0, 0] : Fin 4 → Nat) a + 1), (hinL a).2.2⟩ : Fin (ImgLast.size a)))
        = ix4 b ⟨y.val - 1, hy2⟩ ⟨x.val - 1, hx2⟩ c :=
      funext fun a => Fin.ext (by
        match a with
        | ⟨0, _⟩ => show (b.val - 0) / (0 + 1) = b.val; omega
        | ⟨1, _⟩ => show (y.val - 1) / (0 + 1) = y.val - 1; omega
        | ⟨2, _⟩ => show (x.val - 1) / (0 + 1) = x.val - 1; omega
        | ⟨3, _⟩ => show (c.val - 0) / (0 + 1) = c.val; omega)
    have eF : (fun a : Fin ImgFirst.rank => (⟨(((ix4 b c y x : PadFirst.Idx) (a.cast hF.1)).val - (![0, 0, 1, 1] : Fin 4 → Nat) a) / ((![0, 0, 0, 0] : Fin 4 → Nat) a + 1), (hinF a).2.2⟩ : Fin (ImgFirst.size a)))
        = ix4 b c ⟨y.val - 1, hy2⟩ ⟨x.val - 1, hx2⟩ :=
      funext fun a => Fin.ext (by
        match a with
        | ⟨0, _⟩ => show (b.val - 0) / (0 + 1) = b.val; omega
        | ⟨1, _⟩ => show (c.val - 0) / (0 + 1) = c.val; omega
        | ⟨2, _⟩ => show (y.val - 1) / (0 + 1) = y.val - 1; omega
        | ⟨3, _⟩ => show (x.val - 1) / (0 + 1) = x.val - 1; omega)
    rw [eL, eF]
    exact hx b _ _ c
  · have nL : ¬ ∀ a : Fin ImgLast.rank, (![0, 1, 1, 0] : Fin 4 → Nat) a ≤ ((ix4 b y x c : PadLast.Idx) (a.cast hL.1)).val
        ∧ (((ix4 b y x c : PadLast.Idx) (a.cast hL.1)).val - (![0, 1, 1, 0] : Fin 4 → Nat) a) % ((![0, 0, 0, 0] : Fin 4 → Nat) a + 1) = 0
        ∧ (((ix4 b y x c : PadLast.Idx) (a.cast hL.1)).val - (![0, 1, 1, 0] : Fin 4 → Nat) a) / ((![0, 0, 0, 0] : Fin 4 → Nat) a + 1) < ImgLast.size a := by
      intro h
      have h1 := h ⟨1, by decide⟩
      have h2 := h ⟨2, by decide⟩
      have h1a : 1 ≤ y.val := h1.1
      have h1b : (y.val - 1) / (0 + 1) < 256 := h1.2.2
      have h2a : 1 ≤ x.val := h2.1
      have h2b : (x.val - 1) / (0 + 1) < 256 := h2.2.2
      exact hin ⟨⟨h1a, by omega⟩, h2a, by omega⟩
    have nF : ¬ ∀ a : Fin ImgFirst.rank, (![0, 0, 1, 1] : Fin 4 → Nat) a ≤ ((ix4 b c y x : PadFirst.Idx) (a.cast hF.1)).val
        ∧ (((ix4 b c y x : PadFirst.Idx) (a.cast hF.1)).val - (![0, 0, 1, 1] : Fin 4 → Nat) a) % ((![0, 0, 0, 0] : Fin 4 → Nat) a + 1) = 0
        ∧ (((ix4 b c y x : PadFirst.Idx) (a.cast hF.1)).val - (![0, 0, 1, 1] : Fin 4 → Nat) a) / ((![0, 0, 0, 0] : Fin 4 → Nat) a + 1) < ImgFirst.size a := by
      intro h
      have h1 := h ⟨2, by decide⟩
      have h2 := h ⟨3, by decide⟩
      have h1a : 1 ≤ y.val := h1.1
      have h1b : (y.val - 1) / (0 + 1) < 256 := h1.2.2
      have h2a : 1 ≤ x.val := h2.1
      have h2b : (x.val - 1) / (0 + 1) < 256 := h2.2.2
      exact hin ⟨⟨h1a, by omega⟩, h2a, by omega⟩
    rw [dif_neg nL, dif_neg nF, eq_ix0 (Shape.Idx.first hu)]
    exact hv

/-! ## Gathering a pixel from either padded image -/

/-- The site array: per site and window position, three start indices (image, row, column). -/
abbrev Sites : Shape := ⟨4, ![131072, 3, 3, 3]⟩
/-- The gathered patches: per site and window position, the 64 channels of one pixel. -/
abbrev Patches : Shape := ⟨4, ![131072, 3, 3, 64]⟩

/-- Gathering from the channel-last image: the three start indices address axes 0, 1, 2, the slice is the whole
    channel axis 3. -/
abbrev gatherLast (wf : GatherDims.WF PadLast Sites Patches [3] [0, 1, 2] [] [0, 1, 2] [] 3 ![1, 1, 1, 64]) :
    GatherDims PadLast Sites Patches where
  offsetDims := [3]
  collapsedSliceDims := [0, 1, 2]
  operandBatchingDims := []
  startIndicesBatchingDims := []
  startIndexMap := [0, 1, 2]
  indexVectorDim := 3
  sliceSizes := ![1, 1, 1, 64]
  wf := wf

/-- Gathering from the channel-first image: the three start indices address axes 0, 2, 3, the slice is the whole
    channel axis 1. -/
abbrev gatherFirst (wf : GatherDims.WF PadFirst Sites Patches [3] [0, 2, 3] [] [0, 2, 3] [] 3 ![1, 64, 1, 1]) :
    GatherDims PadFirst Sites Patches where
  offsetDims := [3]
  collapsedSliceDims := [0, 2, 3]
  operandBatchingDims := []
  startIndicesBatchingDims := []
  startIndexMap := [0, 2, 3]
  indexVectorDim := 3
  sliceSizes := ![1, 64, 1, 1]
  wf := wf

/-- Where result element `j` reads component `p` of its start index: at `j`'s site and window position. -/
abbrev siteIdx (j : Patches.Idx) (p : Fin 3) : Sites.Idx := ix4 (j 0) (j 1) (j 2) p

/-- Which axes each gather indexes: closed facts about the two literal lists. -/
theorem inLast0 : (0 : Fin 4) ∈ ([0, 1, 2] : List (Fin 4)) := by decide
theorem inLast1 : (1 : Fin 4) ∈ ([0, 1, 2] : List (Fin 4)) := by decide
theorem inLast2 : (2 : Fin 4) ∈ ([0, 1, 2] : List (Fin 4)) := by decide
theorem inFirst0 : (0 : Fin 4) ∈ ([0, 2, 3] : List (Fin 4)) := by decide
theorem inFirst2 : (2 : Fin 4) ∈ ([0, 2, 3] : List (Fin 4)) := by decide
theorem inFirst3 : (3 : Fin 4) ∈ ([0, 2, 3] : List (Fin 4)) := by decide
theorem three_notIn : ¬ (3 : Fin 4) ∈ ([0, 1, 2] : List (Fin 4)) := by decide
theorem one_notIn : ¬ (1 : Fin 4) ∈ ([0, 2, 3] : List (Fin 4)) := by decide

section Coordinates
variable {w : Nat} (wfL : GatherDims.WF PadLast Sites Patches [3] [0, 1, 2] [] [0, 1, 2] [] 3 ![1, 1, 1, 64])
  (wfF : GatherDims.WF PadFirst Sites Patches [3] [0, 2, 3] [] [0, 2, 3] [] 3 ![1, 64, 1, 1])
  (J : IVec Sites w) (j : Patches.Idx)

/-- The operand index of the channel-last gather, axis by axis: the three start indices read signed and clamped into
    their axes, and the result's channel. -/
theorem last_image : ((gatherLast wfL).operandIdx j J 0).val = min (J (siteIdx j 0)).toInt.toNat 7 := by
  show (gatherLast wfL).start j J 0 + (gatherLast wfL).batchCoord j 0 + (gatherLast wfL).offCoord j 0 = _
  rw [GatherDims.batchCoord_eq_zero _ _ _ List.not_mem_nil,
    GatherDims.offCoord_eq_zero _ _ _ (fun h => ((GatherDims.mem_sKept _ _).mp h).1 inLast0)]
  simp only [Nat.add_zero]
  unfold GatherDims.start
  rw [dif_pos (show (0 : Fin 4) ∈ (gatherLast wfL).startIndexMap from inLast0)]
  have hsi : (gatherLast wfL).siIdx j ⟨List.idxOf (0 : Fin 4) (gatherLast wfL).startIndexMap,
      List.idxOf_lt_length_iff.2 inLast0⟩ = siteIdx j 0 := by
    funext b; refine Fin.ext ?_
    match b with
    | ⟨0, _⟩ => rfl
    | ⟨1, _⟩ => rfl
    | ⟨2, _⟩ => rfl
    | ⟨3, _⟩ => rfl
  rw [hsi]
  rfl

theorem last_row : ((gatherLast wfL).operandIdx j J 1).val = min (J (siteIdx j 1)).toInt.toNat 257 := by
  show (gatherLast wfL).start j J 1 + (gatherLast wfL).batchCoord j 1 + (gatherLast wfL).offCoord j 1 = _
  rw [GatherDims.batchCoord_eq_zero _ _ _ List.not_mem_nil,
    GatherDims.offCoord_eq_zero _ _ _ (fun h => ((GatherDims.mem_sKept _ _).mp h).1 inLast1)]
  simp only [Nat.add_zero]
  unfold GatherDims.start
  rw [dif_pos (show (1 : Fin 4) ∈ (gatherLast wfL).startIndexMap from inLast1)]
  have hsi : (gatherLast wfL).siIdx j ⟨List.idxOf (1 : Fin 4) (gatherLast wfL).startIndexMap,
      List.idxOf_lt_length_iff.2 inLast1⟩ = siteIdx j 1 := by
    funext b; refine Fin.ext ?_
    match b with
    | ⟨0, _⟩ => rfl
    | ⟨1, _⟩ => rfl
    | ⟨2, _⟩ => rfl
    | ⟨3, _⟩ => rfl
  rw [hsi]
  rfl

theorem last_col : ((gatherLast wfL).operandIdx j J 2).val = min (J (siteIdx j 2)).toInt.toNat 257 := by
  show (gatherLast wfL).start j J 2 + (gatherLast wfL).batchCoord j 2 + (gatherLast wfL).offCoord j 2 = _
  rw [GatherDims.batchCoord_eq_zero _ _ _ List.not_mem_nil,
    GatherDims.offCoord_eq_zero _ _ _ (fun h => ((GatherDims.mem_sKept _ _).mp h).1 inLast2)]
  simp only [Nat.add_zero]
  unfold GatherDims.start
  rw [dif_pos (show (2 : Fin 4) ∈ (gatherLast wfL).startIndexMap from inLast2)]
  have hsi : (gatherLast wfL).siIdx j ⟨List.idxOf (2 : Fin 4) (gatherLast wfL).startIndexMap,
      List.idxOf_lt_length_iff.2 inLast2⟩ = siteIdx j 2 := by
    funext b; refine Fin.ext ?_
    match b with
    | ⟨0, _⟩ => rfl
    | ⟨1, _⟩ => rfl
    | ⟨2, _⟩ => rfl
    | ⟨3, _⟩ => rfl
  rw [hsi]
  rfl

theorem last_chan : ((gatherLast wfL).operandIdx j J 3).val = (j 3).val := by
  show (gatherLast wfL).start j J 3 + (gatherLast wfL).batchCoord j 3 + (gatherLast wfL).offCoord j 3 = _
  rw [GatherDims.batchCoord_eq_zero _ _ _ List.not_mem_nil]
  unfold GatherDims.start
  rw [dif_neg (show ¬ (3 : Fin 4) ∈ (gatherLast wfL).startIndexMap from three_notIn)]
  unfold GatherDims.offCoord
  rw [dif_pos (show (3 : Fin 4) ∈ (gatherLast wfL).sKept from (GatherDims.mem_sKept _ _).mpr ⟨three_notIn, List.not_mem_nil⟩)]
  simp only [Nat.zero_add, Nat.add_zero]
  rfl

/-- The same for the channel-first gather: the same three clamped start indices, on axes 0, 2, 3. -/
theorem first_image : ((gatherFirst wfF).operandIdx j J 0).val = min (J (siteIdx j 0)).toInt.toNat 7 := by
  show (gatherFirst wfF).start j J 0 + (gatherFirst wfF).batchCoord j 0 + (gatherFirst wfF).offCoord j 0 = _
  rw [GatherDims.batchCoord_eq_zero _ _ _ List.not_mem_nil,
    GatherDims.offCoord_eq_zero _ _ _ (fun h => ((GatherDims.mem_sKept _ _).mp h).1 inFirst0)]
  simp only [Nat.add_zero]
  unfold GatherDims.start
  rw [dif_pos (show (0 : Fin 4) ∈ (gatherFirst wfF).startIndexMap from inFirst0)]
  have hsi : (gatherFirst wfF).siIdx j ⟨List.idxOf (0 : Fin 4) (gatherFirst wfF).startIndexMap,
      List.idxOf_lt_length_iff.2 inFirst0⟩ = siteIdx j 0 := by
    funext b; refine Fin.ext ?_
    match b with
    | ⟨0, _⟩ => rfl
    | ⟨1, _⟩ => rfl
    | ⟨2, _⟩ => rfl
    | ⟨3, _⟩ => rfl
  rw [hsi]
  rfl

theorem first_row : ((gatherFirst wfF).operandIdx j J 2).val = min (J (siteIdx j 1)).toInt.toNat 257 := by
  show (gatherFirst wfF).start j J 2 + (gatherFirst wfF).batchCoord j 2 + (gatherFirst wfF).offCoord j 2 = _
  rw [GatherDims.batchCoord_eq_zero _ _ _ List.not_mem_nil,
    GatherDims.offCoord_eq_zero _ _ _ (fun h => ((GatherDims.mem_sKept _ _).mp h).1 inFirst2)]
  simp only [Nat.add_zero]
  unfold GatherDims.start
  rw [dif_pos (show (2 : Fin 4) ∈ (gatherFirst wfF).startIndexMap from inFirst2)]
  have hsi : (gatherFirst wfF).siIdx j ⟨List.idxOf (2 : Fin 4) (gatherFirst wfF).startIndexMap,
      List.idxOf_lt_length_iff.2 inFirst2⟩ = siteIdx j 1 := by
    funext b; refine Fin.ext ?_
    match b with
    | ⟨0, _⟩ => rfl
    | ⟨1, _⟩ => rfl
    | ⟨2, _⟩ => rfl
    | ⟨3, _⟩ => rfl
  rw [hsi]
  rfl

theorem first_col : ((gatherFirst wfF).operandIdx j J 3).val = min (J (siteIdx j 2)).toInt.toNat 257 := by
  show (gatherFirst wfF).start j J 3 + (gatherFirst wfF).batchCoord j 3 + (gatherFirst wfF).offCoord j 3 = _
  rw [GatherDims.batchCoord_eq_zero _ _ _ List.not_mem_nil,
    GatherDims.offCoord_eq_zero _ _ _ (fun h => ((GatherDims.mem_sKept _ _).mp h).1 inFirst3)]
  simp only [Nat.add_zero]
  unfold GatherDims.start
  rw [dif_pos (show (3 : Fin 4) ∈ (gatherFirst wfF).startIndexMap from inFirst3)]
  have hsi : (gatherFirst wfF).siIdx j ⟨List.idxOf (3 : Fin 4) (gatherFirst wfF).startIndexMap,
      List.idxOf_lt_length_iff.2 inFirst3⟩ = siteIdx j 2 := by
    funext b; refine Fin.ext ?_
    match b with
    | ⟨0, _⟩ => rfl
    | ⟨1, _⟩ => rfl
    | ⟨2, _⟩ => rfl
    | ⟨3, _⟩ => rfl
  rw [hsi]
  rfl

theorem first_chan : ((gatherFirst wfF).operandIdx j J 1).val = (j 3).val := by
  show (gatherFirst wfF).start j J 1 + (gatherFirst wfF).batchCoord j 1 + (gatherFirst wfF).offCoord j 1 = _
  rw [GatherDims.batchCoord_eq_zero _ _ _ List.not_mem_nil]
  unfold GatherDims.start
  rw [dif_neg (show ¬ (1 : Fin 4) ∈ (gatherFirst wfF).startIndexMap from one_notIn)]
  unfold GatherDims.offCoord
  rw [dif_pos (show (1 : Fin 4) ∈ (gatherFirst wfF).sKept from (GatherDims.mem_sKept _ _).mpr ⟨one_notIn, List.not_mem_nil⟩)]
  simp only [Nat.zero_add, Nat.add_zero]
  rfl

/-- ONE index array read by both gathers: from images that agree across the two layouts they gather the same
    number — the same clamped (image, row, column) and the same channel, whatever integers the index array holds. -/
theorem gather_layouts {α : Type} (xL : PadLast.Idx → α) (xF : PadFirst.Idx → α)
    (hx : ∀ (b : Fin 8) (y x : Fin 258) (c : Fin 64), xL (ix4 b y x c) = xF (ix4 b c y x)) :
    Host.gather (gatherLast wfL) xL J j = Host.gather (gatherFirst wfF) xF J j := by
  unfold Host.gather
  obtain ⟨b, y, x, c, hi⟩ : ∃ (b : Fin 8) (y x : Fin 258) (c : Fin 64), (gatherLast wfL).operandIdx j J = ix4 b y x c :=
    ⟨_, _, _, _, eq_ix4 _⟩
  have hb : b.val = _ := (congrArg (fun i : PadLast.Idx => (i 0).val) hi).symm.trans (last_image wfL J j)
  have hy : y.val = _ := (congrArg (fun i : PadLast.Idx => (i 1).val) hi).symm.trans (last_row wfL J j)
  have hxx : x.val = _ := (congrArg (fun i : PadLast.Idx => (i 2).val) hi).symm.trans (last_col wfL J j)
  have hc : c.val = _ := (congrArg (fun i : PadLast.Idx => (i 3).val) hi).symm.trans (last_chan wfL J j)
  rw [hi, hx]
  congr 1
  funext a
  apply Fin.ext
  match a with
  | ⟨0, _⟩ => exact hb.trans (first_image wfF J j).symm
  | ⟨1, _⟩ => exact hc.trans (first_chan wfF J j).symm
  | ⟨2, _⟩ => exact hy.trans (first_row wfF J j).symm
  | ⟨3, _⟩ => exact hxx.trans (first_col wfF J j).symm

end Coordinates

end Cert.PatchLayout

end
-- ==== Proof.Bridge.lean ====
/-
  The kernel's result and the reference's are one function of the arguments.

  Both programs compute, for site n and output channel d,
      Σ over (row, column, channel) of  pixel(n, row, column, channel) · weight(d, channel, row, column)  +  bias(d),
  where pixel(n, row, column, ·) is the pixel of the zero-padded image that the gather reads at the three start
  indices the site array holds for (n, row, column). The kernel runs the sum in the order 64·(3·row + column) + channel
  over the image with its channel last, the reference in the order 9·channel + 3·row + column over the image as given.

  Three things make the two sides equal. The site arrays are the same term: both programs build theirs from the site
  list by the same operations. The padded images agree across the two layouts, and the gathers then read the same
  pixel whatever the site array holds. And the 576 products are the same products, met in another order.
-/
import proofs.«139347_j71536975282579_2_alg».proof.Proof.KernelIdealValue
import proofs.«139347_j71536975282579_2_alg».proof.Proof.Gen.ReferenceIdeal.Read
import proofs.«139347_j71536975282579_2_alg».proof.Proof.PatchLayout

set_option maxRecDepth 16384

noncomputable section

open scoped BigOperators

namespace Cert.Bridge

open Idealize.ShloMosaic Idealize.ShloMosaic.TcCoe Idealize.ShloMosaic.ValueIdx Idealize.SL.Sem
open Cert.PatchLayout

variable (m : (ℓ : Loc Cert.KernelIdeal.nD Cert.KernelIdeal.τ Cert.KernelIdeal.sig) → Buf (Elt Ideal) ℓ) (c : Dev Cert.KernelIdeal.nD)

/-- The four arguments as the kernel's memory holds them. -/
abbrev image : FVec Ideal ImgFirst .f32 := m ((c.tc : Thread Cert.KernelIdeal.nD Cert.KernelIdeal.τ).loc Cert.KernelIdeal.main_arg0)
abbrev siteList : IVec ⟨2, ![131072, 3]⟩ 32 := m ((c.tc : Thread Cert.KernelIdeal.nD Cert.KernelIdeal.τ).loc Cert.KernelIdeal.main_arg1)
abbrev weight : FVec Ideal ⟨4, ![64, 64, 3, 3]⟩ .f32 := m ((c.tc : Thread Cert.KernelIdeal.nD Cert.KernelIdeal.τ).loc Cert.KernelIdeal.main_arg2)
abbrev bias : FVec Ideal ⟨1, ![64]⟩ .f32 := m ((c.tc : Thread Cert.KernelIdeal.nD Cert.KernelIdeal.τ).loc Cert.KernelIdeal.main_arg3)

/-! ## The site arrays -/

set_option maxHeartbeats 4000000 in
/-- The kernel's site array is the reference's: the same slices of the site list, the same window offsets added,
    the same wrap of a negative index, joined in the same order. -/
theorem sites_eq : (Cert.KernelIdeal.Region.V m c Cert.KernelIdeal.main_v43 : IVec Sites 32) = Cert.ReferenceIdeal.Read.val_main_v41 (F := Ideal) (siteList m c) := by
  dsimp only [Cert.KernelIdeal.Region.V]
  simp only [Cert.KernelIdeal.Gen.hostOps0, Cert.KernelIdeal.Gen.hostOps0_1, Cert.KernelIdeal.Gen.hostOps0_2, List.flatten_cons, List.flatten_nil, List.append_nil, List.cons_append, List.nil_append]
  simp (disch := decide) only [StableHlo.after_cons, StableHlo.after_nil, StableHlo.nullary_result', StableHlo.unary_result', StableHlo.binary_result', StableHlo.ternary_result',
    StableHlo.reshape_result', Cert.KernelIdeal.RegionValue.nary3_result', StableHlo.nullary_result_ne', StableHlo.unary_result_ne', StableHlo.binary_result_ne', StableHlo.ternary_result_ne',
    StableHlo.reshape_result_ne', StableHlo.nary_result_ne']
  rfl

/-! ## The padded images -/

/-- The kernel's padded image at (b, y, x, channel) is the reference's at (b, channel, y, x). -/
theorem padded_layouts (b : Fin 8) (y x : Fin 258) (ch : Fin 64) :
    (Cert.KernelIdeal.Region.V m c Cert.KernelIdeal.main_v2 : FVec Ideal PadLast .bf16) (ix4 b y x ch)
      = (Cert.ReferenceIdeal.Read.val_main_v0 (F := Ideal) (image m c) : FVec Ideal PadFirst .f32) (ix4 b ch y x) := by
  rw [Cert.KernelIdeal.RegionValue.padded_eq]
  unfold Cert.ReferenceIdeal.Read.val_main_v0
  refine pad_layouts _ _ (fun b y x ch => ?_) _ _ ?_ _ _ _ b y x ch
  · exact transpose_apply [0, 2, 3, 1] _ Cert.KernelIdeal.Facts₀.transposes_S8x64x256x256_S8x256x256x64_0_2_3_1 (ix4 b y x ch) (ix4 b ch y x)
      (fun a => match a with
        | ⟨0, _⟩ => rfl
        | ⟨1, _⟩ => rfl
        | ⟨2, _⟩ => rfl
        | ⟨3, _⟩ => rfl)
  · rfl

/-! ## The reference's three operands read at an index -/

/-- The reference's patch matrix at (n, k), k = 9·channel + 3·row + column. -/
theorem ref_patch_apply (x0 : FVec Ideal ImgFirst .f32) (x1 : IVec ⟨2, ![131072, 3]⟩ 32) (n : Fin 131072) (k : Fin 576) :
    Cert.ReferenceIdeal.Read.val_main_v44 (F := Ideal) x0 x1 (ix2 n k)
      = Host.gather Cert.ReferenceIdeal.gather_S8x64x258x258_S131072x3x3x3_S131072x3x3x64_3_023_n_n_023_3_16411
          (Cert.ReferenceIdeal.Read.val_main_v0 (F := Ideal) x0) (Cert.ReferenceIdeal.Read.val_main_v41 (F := Ideal) x1)
          (ix4 n (⟨k.val / 3 % 3, Nat.mod_lt _ (by decide)⟩ : Fin 3) (⟨k.val % 3, Nat.mod_lt _ (by decide)⟩ : Fin 3) (⟨k.val / 9, by have := k.isLt; omega⟩ : Fin 64)) := by
  have hk := k.isLt
  have hn := n.isLt
  rw [Cert.ReferenceIdeal.Read.val_main_v44_apply, Cert.ReferenceIdeal.Read.val_main_v43_apply]
  unfold Cert.ReferenceIdeal.Read.val_main_v42
  refine congrArg (Host.gather _ _ _) (funext fun a => Fin.ext ?_)
  match a with
  | ⟨0, _⟩ => show (n.val * 576 + k.val) / 576 = n.val; omega
  | ⟨1, _⟩ => show (n.val * 576 + k.val) / 3 % 3 = k.val / 3 % 3; omega
  | ⟨2, _⟩ => show (n.val * 576 + k.val) % 3 = k.val % 3; omega
  | ⟨3, _⟩ => show (n.val * 576 + k.val) / 9 % 64 = k.val / 9; omega

/-- The reference's weight matrix at (k, d). -/
theorem ref_weight_apply (x2 : FVec Ideal ⟨4, ![64, 64, 3, 3]⟩ .f32) (k : Fin 576) (d : Fin 64) :
    Cert.ReferenceIdeal.Read.val_main_v46 (F := Ideal) x2 (ix2 k d)
      = x2 (ix4 d (⟨k.val / 9, by have := k.isLt; omega⟩ : Fin 64) (⟨k.val / 3 % 3, Nat.mod_lt _ (by decide)⟩ : Fin 3) (⟨k.val % 3, Nat.mod_lt _ (by decide)⟩ : Fin 3)) := by
  have hk := k.isLt
  have hd := d.isLt
  rw [Cert.ReferenceIdeal.Read.val_main_v46_apply, Cert.ReferenceIdeal.Read.val_main_v45_apply]
  refine congrArg x2 (funext fun a => Fin.ext ?_)
  match a with
  | ⟨0, _⟩ => show (d.val * 576 + k.val) / 576 = d.val; omega
  | ⟨1, _⟩ => show (d.val * 576 + k.val) / 9 % 64 = k.val / 9; omega
  | ⟨2, _⟩ => show (d.val * 576 + k.val) / 3 % 3 = k.val / 3 % 3; omega
  | ⟨3, _⟩ => show (d.val * 576 + k.val) % 3 = k.val % 3; omega

/-- The reference's bias array at (n, d). -/
theorem ref_bias_apply (x3 : FVec Ideal ⟨1, ![64]⟩ .f32) (n : Fin 131072) (d : Fin 64) :
    Cert.ReferenceIdeal.Read.val_main_v49 (F := Ideal) x3 (ix2 n d) = x3 (ix1 d) := by
  rw [Cert.ReferenceIdeal.Read.val_main_v49_apply, Cert.ReferenceIdeal.Read.val_main_v48_apply]
  exact congrArg x3 (funext fun a => Fin.ext (by match a with | ⟨0, _⟩ => rfl))

/-! ## One function -/

/-- The pixel the kernel gathers for (n, row, column, channel) is the one the reference gathers. -/
theorem pixel_eq (j : Patches.Idx) :
    Host.gather Cert.KernelIdeal.gather_S8x258x258x64_S131072x3x3x3_S131072x3x3x64_3_012_n_n_012_3_11164
        (Cert.KernelIdeal.Region.V m c Cert.KernelIdeal.main_v2) (Cert.KernelIdeal.Region.V m c Cert.KernelIdeal.main_v43) j
      = Host.gather Cert.ReferenceIdeal.gather_S8x64x258x258_S131072x3x3x3_S131072x3x3x64_3_023_n_n_023_3_16411
        (Cert.ReferenceIdeal.Read.val_main_v0 (F := Ideal) (image m c)) (Cert.ReferenceIdeal.Read.val_main_v41 (F := Ideal) (siteList m c)) j := by
  have e := sites_eq m c
  show Host.gather (gatherLast Cert.KernelIdeal.Facts₀.gather_S8x258x258x64_S131072x3x3x3_S131072x3x3x64_3_012_n_n_012_3_11164_wf)
      (Cert.KernelIdeal.Region.V m c Cert.KernelIdeal.main_v2 : FVec Ideal PadLast .bf16) (Cert.KernelIdeal.Region.V m c Cert.KernelIdeal.main_v43 : IVec Sites 32) j
    = Host.gather (gatherFirst Cert.ReferenceIdeal.Facts₀.gather_S8x64x258x258_S131072x3x3x3_S131072x3x3x64_3_023_n_n_023_3_16411_wf)
      (Cert.ReferenceIdeal.Read.val_main_v0 (F := Ideal) (image m c) : FVec Ideal PadFirst .f32) (Cert.ReferenceIdeal.Read.val_main_v41 (F := Ideal) (siteList m c)) j
  rw [e]
  exact gather_layouts _ _ _ j _ _ (padded_layouts m c)

/-- The three arrays the kernel's region stages, at their value types. -/
abbrev patchesK : FVec Ideal Cert.KernelIdeal.S131072x576 .bf16 := Cert.KernelIdeal.Region.V m c Cert.KernelIdeal.main_v45
abbrev weightK : FVec Ideal Cert.KernelIdeal.S576x64 .bf16 := Cert.KernelIdeal.Region.V m c Cert.KernelIdeal.main_v48
abbrev biasK : FVec Ideal Cert.KernelIdeal.S1x64 .f32 := Cert.KernelIdeal.Region.V m c Cert.KernelIdeal.main_v49

/-- The kernel's result at (n, d). -/
theorem kernel_apply (n : Fin 131072) (d : Fin 64) :
    Cert.KernelIdeal.RegionValue.result m c (ix2 n d)
      = (∑ k : Fin 576, patchesK m c (ix2 n k) * weightK m c (ix2 k d)) + biasK m c (ix2 0 d) := rfl

/-- The reference's result at (n, d). -/
theorem ref_apply (x0 : FVec Ideal ImgFirst .f32) (x1 : IVec ⟨2, ![131072, 3]⟩ 32) (x2 : FVec Ideal ⟨4, ![64, 64, 3, 3]⟩ .f32)
    (x3 : FVec Ideal ⟨1, ![64]⟩ .f32) (n : Fin 131072) (d : Fin 64) :
    Cert.ReferenceIdeal.Read.val_main_v50 (F := Ideal) x0 x1 x2 x3 (ix2 n d)
      = (∑ k : Fin 576, Cert.ReferenceIdeal.Read.val_main_v44 (F := Ideal) x0 x1 (ix2 n k) * Cert.ReferenceIdeal.Read.val_main_v46 (F := Ideal) x2 (ix2 k d))
        + Cert.ReferenceIdeal.Read.val_main_v49 (F := Ideal) x3 (ix2 n d) := by
  rw [Cert.ReferenceIdeal.Read.val_main_v50_apply, Cert.ReferenceIdeal.Read.val_main_v47_apply]
  rfl

/-- One of the 576 products, met from both sides: the kernel's at position 64·(3·row + column) + channel is the
    reference's at position 9·channel + 3·row + column. -/
theorem term_eq (n : Fin 131072) (d : Fin 64) (k : Fin 576) :
    patchesK m c (ix2 n (swapFlat.symm k)) * weightK m c (ix2 (swapFlat.symm k) d)
      = Cert.ReferenceIdeal.Read.val_main_v44 (F := Ideal) (image m c) (siteList m c) (ix2 n k)
        * Cert.ReferenceIdeal.Read.val_main_v46 (F := Ideal) (weight m c) (ix2 k d) := by
  have hs := swapFlat_symm_val k
  obtain ⟨qrow, qcol, qchan⟩ := swapFlat_coords k
  refine congr (congrArg HMul.hMul ?_) ?_
  · refine (Cert.KernelIdeal.RegionValue.patch_apply m c n (swapFlat.symm k)).trans ?_
    refine Eq.trans ?_ (ref_patch_apply (image m c) (siteList m c) n k).symm
    refine Eq.trans (congrArg (Host.gather _ _ _) (funext fun a => Fin.ext ?_)) (pixel_eq m c _)
    match a with
    | ⟨0, _⟩ => rfl
    | ⟨1, _⟩ => show (swapFlat.symm k).val / 192 = k.val / 3 % 3; rw [hs]; exact qrow
    | ⟨2, _⟩ => show (swapFlat.symm k).val / 64 % 3 = k.val % 3; rw [hs]; exact qcol
    | ⟨3, _⟩ => show (swapFlat.symm k).val % 64 = k.val / 9; rw [hs]; exact qchan
  · refine (Cert.KernelIdeal.RegionValue.weight_apply m c (swapFlat.symm k) d).trans ?_
    refine Eq.trans ?_ (ref_weight_apply (weight m c) k d).symm
    refine congrArg _ (funext fun a => Fin.ext ?_)
    match a with
    | ⟨0, _⟩ => rfl
    | ⟨1, _⟩ => show (swapFlat.symm k).val % 64 = k.val / 9; rw [hs]; exact qchan
    | ⟨2, _⟩ => show (swapFlat.symm k).val / 192 = k.val / 3 % 3; rw [hs]; exact qrow
    | ⟨3, _⟩ => show (swapFlat.symm k).val / 64 % 3 = k.val % 3; rw [hs]; exact qcol

/-- THE EQUATION: the kernel's result array is the reference's last stage of the same four arguments. -/
theorem result_eq :
    Cert.KernelIdeal.RegionValue.result m c
      = Cert.ReferenceIdeal.Read.val_main_v50 (F := Ideal) (image m c) (siteList m c) (weight m c) (bias m c) := by
  funext i
  obtain ⟨n, d, rfl⟩ : ∃ (n : Fin 131072) (d : Fin 64), i = ix2 n d := ⟨i 0, i 1, eq_ix2 i⟩
  refine (kernel_apply m c n d).trans (Eq.trans ?_ (ref_apply _ _ _ _ n d).symm)
  rw [sum_swapFlat]
  refine congr (congrArg HAdd.hAdd (Finset.sum_congr rfl fun k _ => term_eq m c n d k)) ?_
  exact (Cert.KernelIdeal.RegionValue.bias_apply m c d).trans (ref_bias_apply (bias m c) n d).symm

end Cert.Bridge

end
-- ==== Proof.lean ====
/-
  The certificate of the sparse 3x3 convolution: for each of the 131072 listed sites (b, y, x) the 3x3 patch of the
  zero-padded 64-channel image around it, 576 numbers, is multiplied with the [576, 64] matrix of the weights, and the
  bias is added.

  The kernel gathers the patches from the image laid out with the channel last, so a patch is flattened in the order
  (row, column, channel) and meets the weight permuted to that order; the reference gathers from the image as given
  and flattens in the order (channel, row, column). Both sums run over the same 576 products, so on the extended
  reals they are equal by a re-indexing of a finite sum: no distributivity, no cancellation, and so no use of the
  inputs' finiteness. The site list is read by both programs through the same index arithmetic (a negative index
  wrapped once, the gather clamping what is still outside), so it may hold any integers.

  The three frames: each program is a line of host operations, the kernel's followed by one region over 16 row
  blocks; the arguments are written by nothing. The idealization rewrote nothing, so its conjunct is `True`.
-/
import proofs.«139347_j71536975282579_2_alg».proof.Defs
import proofs.«139347_j71536975282579_2_alg».proof.Proof.KernelRegion
import proofs.«139347_j71536975282579_2_alg».proof.Proof.KernelIdealRegion
import proofs.«139347_j71536975282579_2_alg».proof.Proof.Gen.ReferenceIdeal.Run
import proofs.«139347_j71536975282579_2_alg».proof.Proof.Gen.Pre_finite_inputs
import proofs.«139347_j71536975282579_2_alg».proof.Proof.Bridge

noncomputable section

namespace Cert.Proof

open Idealize.ShloMosaic Idealize.SL.Sem

/-- The word-level kernel runs to its end and leaves its four arguments as launched. -/
theorem frame_kernel : Cert.frame_Kernel := fun m ρ _ => Cert.Kernel.Region.frame m ρ

/-- So does its reading at the ideal values. -/
theorem frame_kernelIdeal : Cert.frame_KernelIdeal := fun m ρ _ => Cert.KernelIdeal.Region.frame m ρ

/-- The reference is host operations only: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the same result array: the kernel's is the row-by-weights products plus the bias over
    the three arrays its region stages, the reference's its last stage, and on arguments that agree the two are one
    function — the same 576 products summed in another order. -/
theorem algebraic : Cert.algebraic_KernelIdeal_ReferenceIdeal := by
  intro m ρ m' ρ' _ hagree
  refine ⟨fun c => Cert.KernelIdeal.RegionValue.result m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
